-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S512x128 : Shape := ⟨2, ![512, 128]⟩
abbrev S512 : Shape := ⟨1, ![512]⟩
abbrev S128 : Shape := ⟨1, ![128]⟩
abbrev S2x128 : Shape := ⟨2, ![2, 128]⟩
abbrev S2 : Shape := ⟨1, ![2]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x128 .f32) (main_arg8 : FVec F S2 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S512 .f32) (main_arg5 : FVec F S512 .f32) (main_arg6 : FVec F S128 .f32) (main_arg7 : FVec F S2x128 .f32) (main_arg8 : FVec F S2 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S512x128 .f32) (main_arg3 : FVec F S512x128 .f32) (main_arg4 : FVec F S512 .f32) (main_arg5 : FVec F S512 .f32) (main_arg6 : FVec F S128 .f32) (main_arg7 : FVec F S2x128 .f32) (main_arg8 : FVec F S2 .f32) (main_arg9 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S512x128 : Shape := ⟨2, ![512, 128]⟩
abbrev S512 : Shape := ⟨1, ![512]⟩
abbrev S128 : Shape := ⟨1, ![128]⟩
abbrev S2x128 : Shape := ⟨2, ![2, 128]⟩
abbrev S2 : Shape := ⟨1, ![2]⟩
abbrev S2x600000 : Shape := ⟨2, ![2, 600000]⟩
abbrev S128x512 : Shape := ⟨2, ![128, 512]⟩
abbrev S1x512 : Shape := ⟨2, ![1, 512]⟩
abbrev S_ : Shape := ⟨0, ![]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S50000x2 : Shape := ⟨2, ![50000, 2]⟩
abbrev S5000x2 : Shape := ⟨2, ![5000, 2]⟩
abbrev S1x128 : Shape := ⟨2, ![1, 128]⟩
abbrev S1x2 : Shape := ⟨2, ![1, 2]⟩

abbrev nBuf : Space → Nat
  | .hbm => 82
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S2x600000, .i32⟩
  | .hbm, ⟨10, _⟩ => ⟨S128x512, .f32⟩
  | .hbm, ⟨11, _⟩ => ⟨S128x512, .f32⟩
  | .hbm, ⟨12, _⟩ => ⟨S1x512, .f32⟩
  | .hbm, ⟨13, _⟩ => ⟨S128x512, .f32⟩
  | .hbm, ⟨14, _⟩ => ⟨S128x512, .f32⟩
  | .hbm, ⟨15, _⟩ => ⟨S1x512, .f32⟩
  | .hbm, ⟨16, _⟩ => ⟨S128x512, .f32⟩
  | .hbm, ⟨17, _⟩ => ⟨S128x512, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S50000, .i32⟩
  | .hbm, ⟨43, _⟩ => ⟨S1x600000, .i32⟩
  | .hbm, ⟨44, _⟩ => ⟨S600000, .i32⟩
  | .hbm, ⟨45, _⟩ => ⟨S650000, .i32⟩
  | .hbm, ⟨46, _⟩ => ⟨S1x600000, .i32⟩
  | .hbm, ⟨47, _⟩ => ⟨S600000, .i32⟩
  | .hbm, ⟨48, _⟩ => ⟨S650000, .i32⟩
  | .hbm, ⟨49, _⟩ => ⟨S_, .f32⟩
  | .hbm, ⟨50, _⟩ => ⟨S650000, .f32⟩
  | .hbm, ⟨51, _⟩ => ⟨S_, .f32⟩
  | .hbm, ⟨52, _⟩ => ⟨S50000, .f32⟩
  | .hbm, ⟨53, _⟩ => ⟨S650000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x128, .f32⟩
  | .hbm, ⟨77, _⟩ => ⟨S_, .f32⟩
  | .hbm, ⟨78, _⟩ => ⟨S50000x128, .f32⟩
  | .hbm, ⟨79, _⟩ => ⟨S650000x1, .i32⟩
  | .hbm, ⟨80, _⟩ => ⟨S50000x128, .f32⟩
  | .hbm, ⟨81, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S2x128, .f32⟩
  | .local _ .vmem, ⟨13, _⟩ => ⟨S2, .f32⟩
  | .local _ .vmem, ⟨14, _⟩ => ⟨S5000x2, .f32⟩
  | .local _ .vmem, ⟨15, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S512x128_S128x512_1_0 : S512x128.Transposes [1, 0] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  slices_S128x512_S128x128_0_0 : S128x512.Slices ![0, 0] S128x128
  slices_S128x512_S128x128_0_128 : S128x512.Slices ![0, 128] S128x128
  slices_S128x512_S128x128_0_256 : S128x512.Slices ![0, 256] S128x128
  slices_S128x512_S128x128_0_384 : S128x512.Slices ![0, 384] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S128x128_S128x512_S128x512_1_0_0_1_n_n_wf : DotDims.WF S128x128 S128x512 S128x512 [1] [0] [0] [1] [] []
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S2x128_S5000x2_1_1_0_0_n_n_wf : DotDims.WF S5000x128 S2x128 S5000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S50000x2.size a
  hwx1_5 : ∀ i : grid1.Coords, EltTy.bits .f32 = 32 ∨ (Rect.block (s := S50000x2) S5000x2.size (cc1_transform_5 i) (hinb1_5 i)).WholeWords (EltTy.packing .f32)

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S2x128_S5000x2_1_1_0_0_n_n : DotDims S5000x128 S2x128 S5000x2 where
  lhsContracting := [1]
  rhsContracting := [1]
  lhsNonContracting := [0]
  rhsNonContracting := [0]
  lhsBatch := []
  rhsBatch := []
  wf := dot_S5000x128_S2x128_S5000x2_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S2x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S512x128 : Shape := ⟨2, ![512, 128]⟩
abbrev S512 : Shape := ⟨1, ![512]⟩
abbrev S128 : Shape := ⟨1, ![128]⟩
abbrev S2x128 : Shape := ⟨2, ![2, 128]⟩
abbrev S2 : Shape := ⟨1, ![2]⟩
abbrev S2x600000 : Shape := ⟨2, ![2, 600000]⟩
abbrev S128x512 : Shape := ⟨2, ![128, 512]⟩
abbrev S1x512 : Shape := ⟨2, ![1, 512]⟩
abbrev S_ : Shape := ⟨0, ![]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S2x600000, .i32⟩
  | .hbm, ⟨10, _⟩ => ⟨S128x512, .f32⟩
  | .hbm, ⟨11, _⟩ => ⟨S128x512, .f32⟩
  | .hbm, ⟨12, _⟩ => ⟨S1x512, .f32⟩
  | .hbm, ⟨13, _⟩ => ⟨S128x512, .f32⟩
  | .hbm, ⟨14, _⟩ => ⟨S128x512, .f32⟩
  | .hbm, ⟨15, _⟩ => ⟨S1x512, .f32⟩
  | .hbm, ⟨16, _⟩ => ⟨S128x512, .f32⟩
  | .hbm, ⟨17, _⟩ => ⟨S128x512, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S50000, .i32⟩
  | .hbm, ⟨43, _⟩ => ⟨S1x600000, .i32⟩
  | .hbm, ⟨44, _⟩ => ⟨S600000, .i32⟩
  | .hbm, ⟨45, _⟩ => ⟨S650000, .i32⟩
  | .hbm, ⟨46, _⟩ => ⟨S1x600000, .i32⟩
  | .hbm, ⟨47, _⟩ => ⟨S600000, .i32⟩
  | .hbm, ⟨48, _⟩ => ⟨S650000, .i32⟩
  | .hbm, ⟨49, _⟩ => ⟨S_, .f32⟩
  | .hbm, ⟨50, _⟩ => ⟨S650000, .f32⟩
  | .hbm, ⟨51, _⟩ => ⟨S_, .f32⟩
  | .hbm, ⟨52, _⟩ => ⟨S50000, .f32⟩
  | .hbm, ⟨53, _⟩ => ⟨S650000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S50000x128, .f32⟩
  | .hbm, ⟨86, _⟩ => ⟨S650000x1, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000x128, .f32⟩
  | .hbm, ⟨96, _⟩ => ⟨S650000x128, .f32⟩
  | .hbm, ⟨97, _⟩ => ⟨S650000x128, .f32⟩
  | .hbm, ⟨98, _⟩ => ⟨S_, .f32⟩
  | .hbm, ⟨99, _⟩ => ⟨S50000x128, .f32⟩
  | .hbm, ⟨100, _⟩ => ⟨S650000x1, .i32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S128x2, .f32⟩
  | .hbm, ⟨109, _⟩ => ⟨S50000x2, .f32⟩
  | .hbm, ⟨110, _⟩ => ⟨S1x2, .f32⟩
  | .hbm, ⟨111, _⟩ => ⟨S50000x2, .f32⟩
  | .hbm, ⟨112, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_v44 : Ref sig .tc := ⟨.hbm, 65, rfl⟩
abbrev main_c : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call1_cst : Ref sig .tc := ⟨.hbm, 105, rfl⟩
abbrev main_call1_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  slices_S128x512_S128x128_0_0 : S128x512.Slices ![0, 0] S128x128
  slices_S128x512_S128x128_0_128 : S128x512.Slices ![0, 128] S128x128
  slices_S128x512_S128x128_0_256 : S128x512.Slices ![0, 256] S128x128
  slices_S128x512_S128x128_0_384 : S128x512.Slices ![0, 384] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S128x128_S128x512_S128x512_1_0_0_1_n_n_wf : DotDims.WF S128x128 S128x512 S128x512 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
import proofs.«162294_j48996986912815_2_alg».proof.Proof.Gen.KernelIdeal.Frame

/-! The run of the kernel's program from any launch memory, with the result array named: at the end the
    result buffer (main_v57) holds the contents the last pipeline leaves (the fold W6 of the program's
    segments over the launch memory, read at that buffer), and every argument array is as launched. -/

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch lemma finds its implicit arguments by unifying its conclusion with this one, which takes
-- unfolding plain definitions in a metavariable's type
set_option backward.isDefEq.respectTransparency.types false in
/-- From any memory with zero counters, every weakly fair execution of the program on the TensorCores terminates,
    and in every final state the result buffer holds the last boundary's contents at that buffer while every
    argument array is as launched. -/
theorem run : θ_run defs (onTc (τ := τ) (main (F := F))) ⟨m, fun _ => 0, ρ⟩ (fun r => ∀ c : Dev nD,
      r.2.mem ((c.tc : Thread nD τ).loc main_v57) = Gen.W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KVal

end
-- ==== Proof.KCol.lean ====
import Idealize.ShloMosaic.Lib.Pipeline.Value
import Idealize.ShloMosaic.Lib.ValueIdx

/-! A column broadcast along the rows: an [a, 1] array broadcast to [a, b] reads, at (p, c), the column's
    entry in row p, whatever the position c inside the row. -/

namespace Cert.KernelIdeal.KVal

open Idealize.ShloMosaic Idealize.ShloMosaic.ValueIdx

variable {α : Type}

/-- The column's unit axis is read at 0; the row axis keeps its coordinate (when the row count is itself 1 that
    coordinate is 0 too). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.KVal
-- ==== Proof.KPay0.lean ====
import proofs.«162294_j48996986912815_2_alg».proof.Proof.Gen.KernelIdeal.Skeleton
import proofs.«162294_j48996986912815_2_alg».proof.Proof.KCol
import Idealize.ShloMosaic.PureOps.Ideal.Laws
import Idealize.ShloMosaic.Lib.Pipeline.Value
import Idealize.ShloMosaic.Lib.ValueIdx

/-! The first kernel's arithmetic on one block, read at an entry: row r, feature f of what the body stores is
    the row's product with the weight matrix at f, scaled by the row's factor:
      (∑ k, x r k · W k f) · d r.
    The changes of float format are the identity on the extended reals and the product accumulates into zero. -/

noncomputable section

namespace Cert.KernelIdeal.KVal

open Cert.KernelIdeal Idealize.ShloMosaic Idealize.ShloMosaic.ValueIdx

/-- The product's dimension numbers: the left operand's axis 1 against the right operand's axis 0. -/
abbrev D0 : DotDims S5000x128 S128x128 S5000x128 := dot_S5000x128_S128x128_S5000x128_1_0_0_1_n_n

/-- The left operand is read in the result's row … -/
theorem D0_lhs_0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
/-- … at the contracted position; -/
theorem D0_lhs_1 (i : S5000x128.Idx) (q : D0.contr.Idx) : (D0.lhsIdx i q 1).val = (q ⟨0, by decide⟩).val :=
  D0.lhsIdx_val_of_single rfl i q
/-- the right operand at the contracted position … -/
theorem D0_rhs_0 (i : S5000x128.Idx) (q : D0.contr.Idx) : (D0.rhsIdx i q 0).val = (q ⟨0, by decide⟩).val :=
  D0.rhsIdx_val_of_single rfl i q
/-- … in the result's column. -/
theorem D0_rhs_1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The product into a zero accumulator at (r, f) is the sum over the 128 contracted positions. -/
theorem matmul0_apply (l : FVec Ideal S5000x128 .bf16) (w : FVec Ideal S128x128 .bf16) (r : Fin 5000) (f : Fin 128) :
    FloatOps.matmul D0 none l w (constant S5000x128 .f32 0x00000000#32) (ix2 r f) = ∑ k : Fin 128, l (ix2 r k) * w (ix2 k f) := by
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 r f) ((contrEquiv1 D0 128 rfl rfl).symm k) = ix2 r k := funext fun a => Fin.ext (by
    match a with
    | ⟨0, _⟩ => exact D0_lhs_0 _ _
    | ⟨1, _⟩ => exact (D0_lhs_1 _ _).trans hk)
  have er : D0.rhsIdx (ix2 r f) ((contrEquiv1 D0 128 rfl rfl).symm k) = ix2 k f := funext fun a => Fin.ext (by
    match a with
    | ⟨0, _⟩ => exact (D0_rhs_0 _ _).trans hk
    | ⟨1, _⟩ => exact D0_rhs_1 _ _)
  rw [el, er]

/-- What the body stores, at row r and feature f. -/
theorem k0_pay1_apply (x0 : Vec Ideal S5000x128 .f32) (x1 : Vec Ideal S128x128 .f32) (x2 : Vec Ideal S5000x1 .f32)
    (r : Fin 5000) (f : Fin 128) :
    Gen.k0_pay1 x0 x1 x2 (ix2 r f) = (∑ k : Fin 128, x0 (ix2 r k) * x1 (ix2 k f)) * x2 (ix2 r (0 : Fin 1)) := by
  unfold Gen.k0_pay1
  rw [mulf_apply]
  refine congrArg₂ (· * ·) ?_ ?_
  · refine (matmul0_apply _ _ r f).trans ?_
    rw [shapeCast_self]
    rfl
  · refine (broadcastTo_col_apply _ _ r f).trans ?_
    rw [shapeCast_self]

end Cert.KernelIdeal.KVal

end
-- ==== Proof.Spec.lean ====
/-
  The two programs as functions of plain coordinates, on the extended reals.

  A graph convolution with symmetric normalisation: with `dis v` the inverse square root of node `v`'s
  degree, `x · W` the transformed features, `row e` / `col e` the source and target of edge `e`
  (self-loops included), the hidden layer at target `t` is
      h t f = ∑ over the edges e with col e = t of dis (row e) · dis (col e) · (x · W) (row e) f  + bias f,
  followed by max(·, 0) and a linear classifier.  One program scales each message by both factors
  (`refForm`); the other scales the transformed features by the source's factor before they are gathered
  and the aggregated sum by the target's factor afterwards (`kerForm`).  The edges with target `t` are
  those whose target word, read as a signed integer, is `t`; a source word is normalised (a negative one
  is shifted by the number of nodes) and then clamped into range, as a gather clamps.
-/
import Idealize.ShloMosaic.PureOps.Ideal
import Idealize.ShloMosaic.Lib.ValueIdx

noncomputable section

namespace Cert.GcnSpec

open Idealize.ShloMosaic

/-- A start-index word read as a gather reads it: signed, clamped into `[0, n − 1]`. -/
def clampIdx (n : Nat) (hn : 0 < n) (w : BitVec 32) : Fin n := ⟨min w.toInt.toNat (n - 1), by omega⟩

/-- The edges whose target word, read signed, is the node `t`. -/
def edgesTo {E N : Nat} (colw : Fin E → BitVec 32) (t : Fin N) : Finset (Fin E) :=
  Finset.univ.filter fun e => (colw e).toInt = (t.val : Int)

variable {N E C K Q : Nat}

/-- The transformed features `x · W` at node `v`, feature `f`. -/
def feat (x : Fin N → Fin K → EReal) (W : Fin K → Fin C → EReal) (v : Fin N) (f : Fin C) : EReal :=
  ∑ k : Fin K, x v k * W k f

/-- The classifier on a hidden row: `∑ f, max (h f) 0 · Wc q f + bc q`. -/
def classify (h : Fin C → EReal) (Wc : Fin Q → Fin C → EReal) (bc : Fin Q → EReal) (q : Fin Q) : EReal :=
  (∑ f : Fin C, max (h f) 0 * Wc q f) + bc q

/-- The program that scales the features at the source and the aggregate at the target. -/
def kerForm (hN : 0 < N) (x : Fin N → Fin K → EReal) (W : Fin K → Fin C → EReal) (dis : Fin N → EReal)
    (rowN colw : Fin E → BitVec 32) (gb : Fin C → EReal) (Wc : Fin Q → Fin C → EReal) (bc : Fin Q → EReal)
    (t : Fin N) (q : Fin Q) : EReal :=
  classify (fun f => dis t * (0 + ∑ e ∈ edgesTo colw t, feat x W (clampIdx N hN (rowN e)) f * dis (clampIdx N hN (rowN e))) + gb f)
    Wc bc q

/-- The program that scales each message by both factors. -/
def refForm (hN : 0 < N) (x : Fin N → Fin K → EReal) (W : Fin K → Fin C → EReal) (dis : Fin N → EReal)
    (rowN colN colw : Fin E → BitVec 32) (gb : Fin C → EReal) (Wc : Fin Q → Fin C → EReal) (bc : Fin Q → EReal)
    (t : Fin N) (q : Fin Q) : EReal :=
  classify (fun f => (0 + ∑ e ∈ edgesTo colw t,
      (dis (clampIdx N hN (rowN e)) * dis (clampIdx N hN (colN e))) * feat x W (clampIdx N hN (rowN e)) f) + gb f)
    Wc bc q

end Cert.GcnSpec

end
-- ==== Proof.KRegion0.lean ====
import proofs.«162294_j48996986912815_2_alg».proof.Proof.Gen.KernelIdeal.Frame
import proofs.«162294_j48996986912815_2_alg».proof.Proof.KPay0
import proofs.«162294_j48996986912815_2_alg».proof.Proof.Spec
import Idealize.ShloMosaic.Lib.Pipeline.Value
import Idealize.ShloMosaic.Lib.ValueIdx

/-! The first pipeline's result array in closed form, at the extended reals, from any contents V of the buffers at
    the pipeline's entry.  The grid has ten points; point t handles rows 5000·t … 5000·t + 4999: it reads those rows
    of the node features and of the column of factors, the whole weight matrix, and writes back those rows of
      out v f = (∑ k, x v k · W k f) · d v.
    The ten row blocks cover the array, so after the last point the array is that function everywhere. -/

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The result as one function of the three arrays: the transformed features of node v at feature f, times the
    node's factor. -/
def G0 (X : S50000x128.Idx → EReal) (W : S128x128.Idx → EReal) (D : S50000x1.Idx → EReal) : S50000x128.Idx → EReal :=
  fun i => Cert.GcnSpec.feat (fun (v : Fin 50000) (k : Fin 128) => X (ix2 v k)) (fun (k : Fin 128) (f : Fin 128) => W (ix2 k f))
      (⟨(i 0).val, idx2_lt0 i⟩ : Fin 50000) (⟨(i 1).val, idx2_lt1 i⟩ : Fin 128)
    * D (ix2 (⟨(i 0).val, idx2_lt0 i⟩ : Fin 50000) (0 : Fin 1))

theorem G0_apply (X : S50000x128.Idx → EReal) (W : S128x128.Idx → EReal) (D : S50000x1.Idx → EReal) (v : Fin 50000) (f : Fin 128) :
    G0 X W D (ix2 v f) = (∑ k : Fin 128, X (ix2 v k) * W (ix2 k f)) * D (ix2 v (0 : Fin 1)) := rfl

/-- The index maps over the ten points: the row windows sit at block row t, the weight matrix at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of the feature block at point t is row 5000·t + r of the array. -/
theorem iblk0_0_apply (c : Dev nD) (t : Fin cfg0.N) (r : Fin 5000) (k : Fin 128) (v : Fin 50000) (hv : v.val = t.val * 5000 + r.val) :
    (iblk0 V c 0 t : Vec Ideal S5000x128 .f32) (ix2 r k) = (V c main_arg0 : S50000x128.Idx → EReal) (ix2 v k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * r.val = v.val; rw [e0, hv]; omega
  | ⟨1, _⟩ => show win0_0.index t (1 : Fin 2) * 128 + 1 * k.val = k.val; rw [e1]; omega

/-- The weight block is the whole matrix at every point. -/
theorem iblk0_1_apply (c : Dev nD) (t : Fin cfg0.N) (k : Fin 128) (f : Fin 128) :
    (iblk0 V c 1 t : Vec Ideal S128x128 .f32) (ix2 k f) = (V c main_v27 : S128x128.Idx → EReal) (ix2 k f) := by
  obtain ⟨-, -, e2, e3, -⟩ := idx_facts0 t
  unfold iblk0
  rw [View.read_apply]
  show V c main_v27 _ = V c main_v27 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * f.val = f.val; rw [e3]; omega

/-- Row r of the factor block at point t is row 5000·t + r of the column. -/
theorem iblk0_2_apply (c : Dev nD) (t : Fin cfg0.N) (r : Fin 5000) (v : Fin 50000) (hv : v.val = t.val * 5000 + r.val) :
    (iblk0 V c 2 t : Vec Ideal S5000x1 .f32) (ix2 r (0 : Fin 1)) = (V c main_v45 : S50000x1.Idx → EReal) (ix2 v (0 : Fin 1)) := by
  obtain ⟨-, -, -, -, e4, e5, -⟩ := idx_facts0 t
  unfold iblk0
  rw [View.read_apply]
  show V c main_v45 _ = V c main_v45 _
  congr 1
  funext a
  apply Fin.ext
  match a with
  | ⟨0, _⟩ => show win0_2.index t (0 : Fin 2) * 5000 + 1 * r.val = v.val; rw [e4, hv]; omega
  | ⟨1, _⟩ => show win0_2.index t (1 : Fin 2) * 1 + 1 * 0 = 0; rw [e5]

/-- Entry (r, f) of the result block at point t is entry (5000·t + r, f) of the array. -/
theorem oblk0_emb (t : Fin cfg0.N) (r : Fin 5000) (f : Fin 128) (v : Fin 50000) (hv : v.val = t.val * 5000 + r.val) :
    (((cfg0.win 3).blk t).view.emb (ix2 r f) : S50000x128.Idx) = ix2 v f := by
  obtain ⟨-, -, -, -, -, -, e6, e7⟩ := idx_facts0 t
  funext a
  apply Fin.ext
  match a with
  | ⟨0, _⟩ => show win0_3.index t (0 : Fin 2) * 5000 + 1 * r.val = v.val; rw [e6, hv]; omega
  | ⟨1, _⟩ => show win0_3.index t (1 : Fin 2) * 128 + 1 * f.val = f.val; rw [e7]; omega

/-- What the body computes from the blocks at point t is the block of G0 under the result window. -/
theorem block0_eq (c : Dev nD) (t : Fin cfg0.N) :
    (Gen.k0_pay1 (iblk0 V c 0 t) (iblk0 V c 1 t) (iblk0 V c 2 t) : S5000x128.Idx → EReal)
      = fun j : S5000x128.Idx => G0 (V c main_arg0) (V c main_v27) (V c main_v45) (((cfg0.win 3).blk t).view.emb j) := by
  funext j
  obtain ⟨r, f, rfl⟩ : ∃ (r : Fin 5000) (f : Fin 128), j = ix2 r f := ⟨j 0, j 1, eq_ix2 j⟩
  have hN : cfg0.N = 10 := N_0
  have ht : t.val < 10 := by have := t.isLt; omega
  have hr : r.val < 5000 := r.isLt
  have hvlt : t.val * 5000 + r.val < 50000 := by omega
  refine (k0_pay1_apply (iblk0 V c 0 t) (iblk0 V c 1 t) (iblk0 V c 2 t) r f).trans ?_
  rw [oblk0_emb t r f ⟨t.val * 5000 + r.val, hvlt⟩ rfl, G0_apply, iblk0_2_apply V c t r ⟨t.val * 5000 + r.val, hvlt⟩ rfl]
  refine congrArg (· * _) (Finset.sum_congr rfl fun k _ => ?_)
  rw [iblk0_0_apply V c t r k ⟨t.val * 5000 + r.val, hvlt⟩ rfl, iblk0_1_apply V c t k f]

/-- What point t writes back is block t of G0 of the arrays as the pipeline finds them. -/
theorem flushed0_eq (c : Dev nD) (t : Fin cfg0.N) :
    (dat0 V c).flushed 3 t = ((cfg0.win 3).blk t).view.read (Elt Ideal) (G0 (V c main_arg0) (V c main_v27) (V c main_v45)) := by
  show (cfg0.win 3).cut (grid0.coords t) ((dat0 V c).after 3 t) = _
  rw [after0_3]
  unfold out0_3
  rw [View.canon_unit_zero zero_offsets2]
  simp only [View.ld_unit_zero (S := S5000x128) zero_offsets2, View.ld_unit_zero (S := S128x128) zero_offsets2, View.ld_unit_zero (S := S5000x1) zero_offsets2]
  exact block0_eq V c t

/-- A row of the array lies in the block of the point that is the row's number divided by 5000. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v46).slice (win0_3.rect t)).set ↔ _
  rw [View.set_slice_whole, Rect.mem_set_unit]
  exact Iff.rfl

theorem cover0 (i : S50000x128.Idx) : ∃ t : Fin cfg0.N, (cfg0.win 3).flush t = true ∧ i ∈ ((cfg0.win 3).blk t).view.set := by
  have hN : cfg0.N = 10 := N_0
  have hi0 : (i 0).val < 50000 := idx2_lt0 i
  have hi1 : (i 1).val < 128 := idx2_lt1 i
  refine ⟨⟨(i 0).val / 5000, by rw [hN]; omega⟩, flush0_3 _, ?_⟩
  rw [mem_blk0]
  obtain ⟨-, -, -, -, -, -, e6, e7⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- The result array after the pipeline. -/
theorem final0 (c : Dev nD) :
    (dat0 V c).arrAt 3 cfg0.N = G0 (V c main_arg0) (V c main_v27) (V c main_v45) :=
  (dat0 V c).arrAt_eq_of_cover 3 (G0 (V c main_arg0) (V c main_v27) (V c main_v45)) (fun t _ => flushed0_eq V c t) cover0

/-- The result array read at node v, feature f. -/
theorem region0_apply (c : Dev nD) (v : Fin 50000) (f : Fin 128) :
    ((Gen.dat0 (F := Ideal) V c).arrAt 3 cfg0.N : S50000x128.Idx → EReal) (ix2 v f)
      = Cert.GcnSpec.feat (fun v k => (V c main_arg0 : S50000x128.Idx → EReal) (ix2 v k))
                          (fun k f => (V c main_v27 : S128x128.Idx → EReal) (ix2 k f)) v f
        * (V c main_v45 : S50000x1.Idx → EReal) (ix2 v 0) :=
  congrFun (final0 V c) (ix2 v f)

end Cert.KernelIdeal.KVal

end
-- ==== Proof.KPay1.lean ====
import proofs.«162294_j48996986912815_2_alg».proof.Proof.Gen.KernelIdeal.Skeleton
import proofs.«162294_j48996986912815_2_alg».proof.Proof.KCol
import proofs.«162294_j48996986912815_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

/-! The second kernel's arithmetic on one block, read at an entry: row r, class q of what the body stores is
    the classifier applied to the row's hidden vector,
      (∑ f, max (d r · h r f + b f) 0 · W q f) + c q,
    where d is the row's factor (a column), h the aggregated features, b the bias, W the classifier's
    weights (contracted along their second axis) and c its bias.  The changes of float format are the
    identity on the extended reals, the product accumulates into zero, and the zero word is the real 0. -/

noncomputable section

namespace Cert.KernelIdeal.KVal

open Cert.KernelIdeal Idealize.ShloMosaic Idealize.ShloMosaic.ValueIdx

/-- The product's dimension numbers: the left operand's axis 1 against the right operand's axis 1. -/
abbrev D1 : DotDims S5000x128 S2x128 S5000x2 := dot_S5000x128_S2x128_S5000x2_1_1_0_0_n_n

/-- The left operand is read in the result's row … -/
theorem D1_lhs_0 (i : S5000x2.Idx) (q : D1.contr.Idx) : (D1.lhsIdx i q 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
/-- … at the contracted position; -/
theorem D1_lhs_1 (i : S5000x2.Idx) (q : D1.contr.Idx) : (D1.lhsIdx i q 1).val = (q ⟨0, by decide⟩).val :=
  D1.lhsIdx_val_of_single rfl i q
/-- the right operand in the row the result's column names … -/
theorem D1_rhs_0 (i : S5000x2.Idx) (q : D1.contr.Idx) : (D1.rhsIdx i q 0).val = (i 1).val := by
  unfold DotDims.rhsIdx
  rw [dif_neg (show ¬(0 : Fin S2x128.rank) ∈ D1.rhsBatch by decide), dif_pos (show (0 : Fin S2x128.rank) ∈ D1.rhsNonContracting by decide)]
  rfl
/-- … at the contracted position. -/
theorem D1_rhs_1 (i : S5000x2.Idx) (q : D1.contr.Idx) : (D1.rhsIdx i q 1).val = (q ⟨0, by decide⟩).val :=
  D1.rhsIdx_val_of_single rfl i q

/-- The product into a zero accumulator at (r, q) is the sum over the 128 contracted positions, both
    operands read along their second axis. -/
theorem matmul1_apply (l : FVec Ideal S5000x128 .bf16) (w : FVec Ideal S2x128 .bf16) (r : Fin 5000) (q : Fin 2) :
    FloatOps.matmul D1 none l w (constant S5000x2 .f32 0x00000000#32) (ix2 r q) = ∑ k : Fin 128, l (ix2 r k) * w (ix2 q k) := by
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 r q) ((contrEquiv1 D1 128 rfl rfl).symm k) = ix2 r k := funext fun a => Fin.ext (by
    match a with
    | ⟨0, _⟩ => exact D1_lhs_0 _ _
    | ⟨1, _⟩ => exact (D1_lhs_1 _ _).trans hk)
  have er : D1.rhsIdx (ix2 r q) ((contrEquiv1 D1 128 rfl rfl).symm k) = ix2 q k := funext fun a => Fin.ext (by
    match a with
    | ⟨0, _⟩ => exact D1_rhs_0 _ _
    | ⟨1, _⟩ => exact (D1_rhs_1 _ _).trans hk)
  rw [el, er]

/-- What the body stores, at row r and class q: the classifier on the row's hidden vector. -/
theorem k1_pay1_apply (x0 : Vec Ideal S5000x128 .f32) (x1 : Vec Ideal S5000x1 .f32) (x2 : Vec Ideal S128 .f32)
    (x3 : Vec Ideal S2x128 .f32) (x4 : Vec Ideal S2 .f32) (r : Fin 5000) (q : Fin 2) :
    Gen.k1_pay1 x1 x0 x2 x3 x4 (ix2 r q)
      = Cert.GcnSpec.classify (fun f : Fin 128 => x1 (ix2 r (0 : Fin 1)) * x0 (ix2 r f) + x2 (ix1 f))
          (fun (q : Fin 2) (f : Fin 128) => x3 (ix2 q f)) (fun q : Fin 2 => x4 (ix1 q)) q := by
  unfold Gen.k1_pay1 Cert.GcnSpec.classify
  rw [addf_apply]
  refine congrArg₂ (· + ·) ?_ ?_
  · refine (matmul1_apply _ _ r q).trans ?_
    refine Finset.sum_congr rfl fun k _ => ?_
    rw [truncf_apply, truncf_apply, maximumf_apply, broadcast_apply, addf_apply, mulf_apply]
    refine congrArg₂ (· * ·) (congrArg₂ max (congrArg₂ (· + ·) (congrArg₂ (· * ·) ?_ ?_) ?_) ?_) rfl
    · refine (broadcastTo_col_apply _ _ r k).trans ?_
      rw [shapeCast_self]
    · rw [shapeCast_self]
    · refine (broadcastTo_1b_ab_apply _ _ r k).trans ?_
      exact shapeCast_a_1a_apply _ _ 0 k
    · exact Ideal.ofBits_zero_f32
  · refine (broadcastTo_1b_ab_apply _ _ r q).trans ?_
    exact shapeCast_a_1a_apply _ _ 0 q

end Cert.KernelIdeal.KVal

end
-- ==== Proof.KRegion1.lean ====
import proofs.«162294_j48996986912815_2_alg».proof.Proof.Gen.KernelIdeal.Frame
import proofs.«162294_j48996986912815_2_alg».proof.Proof.Gen.KernelIdeal.Points
import proofs.«162294_j48996986912815_2_alg».proof.Proof.Gen.KernelIdeal.Launch
import proofs.«162294_j48996986912815_2_alg».proof.Proof.KPay1
import proofs.«162294_j48996986912815_2_alg».proof.Proof.Spec
import Idealize.ShloMosaic.Lib.Pipeline.Value

/-! The second region's result array as one function of the arrays the region finds.

    The region walks ten grid points; point i stages rows 5000·i … 5000·i + 4999 of the aggregated features and of
    the factor column, the whole bias, classifier weights and classifier bias, and writes back rows
    5000·i … 5000·i + 4999 of the result.  So a block's entry (r, ·) is the array's row 5000·i + r, the ten blocks
    tile the 50000 rows (row t lies in block t / 5000), and the array ends holding, at (t, q), the classifier
    applied to the hidden row  d t · h t f + b f. -/

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The classifier on row t of the arrays the region finds, class q. -/
def rowClass1 (c : Dev nD) (t : Fin 50000) (q : Fin 2) : EReal :=
  Cert.GcnSpec.classify
    (fun f => HAdd.hAdd (α := EReal) (β := EReal)
        (HMul.hMul (α := EReal) (β := EReal) ((V c main_v45 : S50000x1.Idx → EReal) (ix2 t 0))
          ((V c main_v56 : S50000x128.Idx → EReal) (ix2 t f)))
        ((V c main_arg6 : S128.Idx → EReal) (ix1 f)))
    (fun q f => (V c main_arg7 : S2x128.Idx → EReal) (ix2 q f))
    (fun q => (V c main_arg8 : S2.Idx → EReal) (ix1 q)) q

/-- The result array as one function of the arrays the region finds. -/
def G1 (c : Dev nD) : S50000x2.Idx → EReal := fun i => rowClass1 V c (i 0) (i 1)

/-- What the body leaves in the output block, at row r and class q, from the five input blocks. -/
theorem out1_5_apply (x0 : Vec Ideal S5000x128 .f32) (x1 : Vec Ideal S5000x1 .f32) (x2 : Vec Ideal S128 .f32)
    (x3 : Vec Ideal S2x128 .f32) (x4 : Vec Ideal S2 .f32) (r : Fin 5000) (q : Fin 2) :
    Gen.out1_5 x0 x1 x2 x3 x4 (ix2 r q)
      = Cert.GcnSpec.classify (fun f : Fin 128 => x1 (ix2 r (0 : Fin 1)) * x0 (ix2 r f) + x2 (ix1 f))
          (fun (q : Fin 2) (f : Fin 128) => x3 (ix2 q f)) (fun q : Fin 2 => x4 (ix1 q)) q := by
  unfold Gen.out1_5
  rw [View.canon_unit_zero hz2_1]
  simp only [View.ld_unit_zero (S := S5000x128) hz2_1, View.ld_unit_zero (S := S5000x1) hz2_1,
    View.ld_unit_zero (S := S128) hz1_1, View.ld_unit_zero (S := S2x128) hz2_1, View.ld_unit_zero (S := S2) hz1_1]
  exact k1_pay1_apply x0 x1 x2 x3 x4 r q

/-- The index maps over the grid: the three row-blocked windows are at block (i, 0) at point i, the three whole
    windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## The input blocks read off the arrays

A block's entry sits in its array at block index × block size + its own coordinate on each axis. -/

theorem iblk1_0_apply (c : Dev nD) (t : Fin cfg1.N) (r : Fin 5000) (f : Fin 128) (T : Fin 50000)
    (hT : T.val = t.val * 5000 + r.val) :
    (iblk1 V c 0 t : Vec Ideal S5000x128 .f32) (ix2 r f) = (V c main_v56 : S50000x128.Idx → EReal) (ix2 T f) := by
  obtain ⟨e00, e01, e10, e11, e2, e30, e31, e4, e50, e51⟩ := idx_facts1 t
  unfold iblk1
  rw [View.read_apply]
  show (V c main_v56 : S50000x128.Idx → EReal) _ = (V c main_v56 : S50000x128.Idx → EReal) (ix2 T f)
  refine congrArg (V c main_v56 : S50000x128.Idx → EReal) (funext fun a => Fin.ext ?_)
  match a with
  | ⟨0, _⟩ =>
    show win1_0.index t (0 : Fin 2) * 5000 + 1 * r.val = T.val
    rw [e00, hT]; omega
  | ⟨1, _⟩ =>
    show win1_0.index t (1 : Fin 2) * 128 + 1 * f.val = f.val
    rw [e01]; omega

theorem iblk1_1_apply (c : Dev nD) (t : Fin cfg1.N) (r : Fin 5000) (f : Fin 1) (T : Fin 50000)
    (hT : T.val = t.val * 5000 + r.val) :
    (iblk1 V c 1 t : Vec Ideal S5000x1 .f32) (ix2 r f) = (V c main_v45 : S50000x1.Idx → EReal) (ix2 T f) := by
  obtain ⟨e00, e01, e10, e11, e2, e30, e31, e4, e50, e51⟩ := idx_facts1 t
  unfold iblk1
  rw [View.read_apply]
  show (V c main_v45 : S50000x1.Idx → EReal) _ = (V c main_v45 : S50000x1.Idx → EReal) (ix2 T f)
  refine congrArg (V c main_v45 : S50000x1.Idx → EReal) (funext fun a => Fin.ext ?_)
  match a with
  | ⟨0, _⟩ =>
    show win1_1.index t (0 : Fin 2) * 5000 + 1 * r.val = T.val
    rw [e10, hT]; omega
  | ⟨1, _⟩ =>
    show win1_1.index t (1 : Fin 2) * 1 + 1 * f.val = f.val
    rw [e11]; omega

theorem iblk1_2_apply (c : Dev nD) (t : Fin cfg1.N) (f : Fin 128) :
    (iblk1 V c 2 t : Vec Ideal S128 .f32) (ix1 f) = (V c main_arg6 : S128.Idx → EReal) (ix1 f) := by
  obtain ⟨e00, e01, e10, e11, e2, e30, e31, e4, e50, e51⟩ := idx_facts1 t
  unfold iblk1
  rw [View.read_apply]
  show (V c main_arg6 : S128.Idx → EReal) _ = (V c main_arg6 : S128.Idx → EReal) (ix1 f)
  refine congrArg (V c main_arg6 : S128.Idx → EReal) (funext fun a => Fin.ext ?_)
  match a with
  | ⟨0, _⟩ =>
    show win1_2.index t (0 : Fin 1) * 128 + 1 * f.val = f.val
    rw [e2]; omega

theorem iblk1_3_apply (c : Dev nD) (t : Fin cfg1.N) (r : Fin 2) (f : Fin 128) (T : Fin 2)
    (hT : T.val = r.val) :
    (iblk1 V c 3 t : Vec Ideal S2x128 .f32) (ix2 r f) = (V c main_arg7 : S2x128.Idx → EReal) (ix2 T f) := by
  obtain ⟨e00, e01, e10, e11, e2, e30, e31, e4, e50, e51⟩ := idx_facts1 t
  unfold iblk1
  rw [View.read_apply]
  show (V c main_arg7 : S2x128.Idx → EReal) _ = (V c main_arg7 : S2x128.Idx → EReal) (ix2 T f)
  refine congrArg (V c main_arg7 : S2x128.Idx → EReal) (funext fun a => Fin.ext ?_)
  match a with
  | ⟨0, _⟩ =>
    show win1_3.index t (0 : Fin 2) * 2 + 1 * r.val = T.val
    rw [e30, hT]; omega
  | ⟨1, _⟩ =>
    show win1_3.index t (1 : Fin 2) * 128 + 1 * f.val = f.val
    rw [e31]; omega

theorem iblk1_4_apply (c : Dev nD) (t : Fin cfg1.N) (f : Fin 2) :
    (iblk1 V c 4 t : Vec Ideal S2 .f32) (ix1 f) = (V c main_arg8 : S2.Idx → EReal) (ix1 f) := by
  obtain ⟨e00, e01, e10, e11, e2, e30, e31, e4, e50, e51⟩ := idx_facts1 t
  unfold iblk1
  rw [View.read_apply]
  show (V c main_arg8 : S2.Idx → EReal) _ = (V c main_arg8 : S2.Idx → EReal) (ix1 f)
  refine congrArg (V c main_arg8 : S2.Idx → EReal) (funext fun a => Fin.ext ?_)
  match a with
  | ⟨0, _⟩ =>
    show win1_4.index t (0 : Fin 1) * 2 + 1 * f.val = f.val
    rw [e4]; omega

/-! ## What a point writes back, the cover, and the array -/

/-- Point i writes back block i of `G1`: the block's row r is the array's row 5000·i + r. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  funext j
  obtain ⟨r, q, rfl⟩ : ∃ (r : Fin 5000) (q : Fin 2), j = ix2 r q := ⟨j 0, j 1, eq_ix2 j⟩
  have hN : cfg1.N = 10 := N_1
  have ht := t.isLt
  have hr := r.isLt
  obtain ⟨e00, e01, e10, e11, e2, e30, e31, e4, e50, e51⟩ := idx_facts1 t
  have hT : t.val * 5000 + r.val < 50000 := by omega
  have hemb : ((cfg1.win 5).blk t).view.emb (ix2 r q) = (ix2 (⟨t.val * 5000 + r.val, hT⟩ : Fin 50000) q : S50000x2.Idx) := by
    funext a; apply Fin.ext
    match a with
    | ⟨0, _⟩ =>
      show win1_5.index t (0 : Fin 2) * 5000 + 1 * r.val = t.val * 5000 + r.val
      rw [e50]; omega
    | ⟨1, _⟩ =>
      show win1_5.index t (1 : Fin 2) * 2 + 1 * q.val = q.val
      rw [e51]; omega
  show Gen.out1_5 (iblk1 V c 0 t) (iblk1 V c 1 t) (iblk1 V c 2 t) (iblk1 V c 3 t) (iblk1 V c 4 t) (ix2 r q)
    = G1 V c (((cfg1.win 5).blk t).view.emb (ix2 r q))
  rw [hemb]
  refine (out1_5_apply (iblk1 V c 0 t) (iblk1 V c 1 t) (iblk1 V c 2 t) (iblk1 V c 3 t) (iblk1 V c 4 t) r q).trans ?_
  show _ = rowClass1 V c ⟨t.val * 5000 + r.val, hT⟩ q
  unfold rowClass1 Cert.GcnSpec.classify
  refine congrArg₂ (· + ·) (Finset.sum_congr rfl fun f _ => ?_) (iblk1_4_apply V c t q)
  beta_reduce
  rw [iblk1_0_apply V c t r f ⟨t.val * 5000 + r.val, hT⟩ rfl, iblk1_1_apply V c t r 0 ⟨t.val * 5000 + r.val, hT⟩ rfl,
    iblk1_2_apply V c t f, iblk1_3_apply V c t q f q rfl]

/-- An index of the array is in point i's block iff each coordinate is in the block's range on its axis. -/
theorem mem_blk1 (t : Fin cfg1.N) (i : S50000x2.Idx) :
    i ∈ ((cfg1.win 5).blk t).view.set ↔ ∀ a : Fin 2, win1_5.index t a * S5000x2.size a ≤ (i a).val
      ∧ (i a).val < win1_5.index t a * S5000x2.size a + S5000x2.size a := by
  show i ∈ ((View.whole main_v57).slice (win1_5.rect t)).set ↔ _
  rw [View.set_slice_whole, Rect.mem_set_unit]
  exact Iff.rfl

/-- Row t of the array lies in the block of point t / 5000. -/
theorem cover1 (i : S50000x2.Idx) :
    ∃ t : Fin cfg1.N, (cfg1.win 5).flush t = true ∧ i ∈ ((cfg1.win 5).blk t).view.set := by
  have hN : cfg1.N = 10 := N_1
  have h0 : (i 0).val < 50000 := (i 0).isLt
  have h1 : (i 1).val < 2 := (i 1).isLt
  have hp : (i 0).val / 5000 < cfg1.N := by omega
  obtain ⟨e00, e01, e10, e11, e2, e30, e31, e4, e50, e51⟩ := idx_facts1 ⟨(i 0).val / 5000, hp⟩
  refine ⟨⟨(i 0).val / 5000, hp⟩, flush1_5 _, ?_⟩
  rw [mem_blk1]
  intro a
  match a with
  | ⟨0, _⟩ =>
    show win1_5.index ⟨(i 0).val / 5000, hp⟩ (0 : Fin 2) * 5000 ≤ (i 0).val
      ∧ (i 0).val < win1_5.index ⟨(i 0).val / 5000, hp⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hp⟩ (1 : Fin 2) * 2 ≤ (i 1).val
      ∧ (i 1).val < win1_5.index ⟨(i 0).val / 5000, hp⟩ (1 : Fin 2) * 2 + 2
    rw [e51]
    omega

/-- The array after the region's run is `G1` of the arrays the region finds. -/
theorem final1 (c : Dev nD) : (dat1 V c).arrAt 5 cfg1.N = G1 V c :=
  (dat1 V c).arrAt_eq_of_cover 5 (G1 V c) (fun t _ => flushed1_eq V c t) (cover1)

/-- The second region's result at row t, class q: the classifier applied to the hidden row
    d t · h t f + b f of the arrays the region finds. -/
theorem region1_apply (c : Dev nD) (t : Fin 50000) (q : Fin 2) :
    ((Gen.dat1 (F := Ideal) V c).arrAt 5 cfg1.N : S50000x2.Idx → EReal) (ix2 t q)
      = Cert.GcnSpec.classify
    (fun f => HAdd.hAdd (α := EReal) (β := EReal)
        (HMul.hMul (α := EReal) (β := EReal) ((V c main_v45 : S50000x1.Idx → EReal) (ix2 t 0))
          ((V c main_v56 : S50000x128.Idx → EReal) (ix2 t f)))
        ((V c main_arg6 : S128.Idx → EReal) (ix1 f)))
    (fun q f => (V c main_arg7 : S2x128.Idx → EReal) (ix2 q f))
    (fun q => (V c main_arg8 : S2.Idx → EReal) (ix1 q)) q :=
  congrFun (final1 V c) (ix2 t q)

end Cert.KernelIdeal.KVal

end
-- ==== Proof.KHost.lean ====
/-
  The host stretches of the two-region program, read back.

  Before its first region the program computes on the host the evolved weight matrix, the edge words (sources
  and targets, self-loops appended), the degree factors and their column form; between the regions it
  normalises the source words, gathers the first region's rows at them and adds the gathered rows up at the
  targets. These are the same host operations the plain program applies to the same arguments, so each
  buffer's contents at a region's entry is the plain program's stage of the same arguments — the weight
  matrix, the factors and the edge words are carried as those stages and never opened here.
-/
import proofs.«162294_j48996986912815_2_alg».proof.Proof.Gen.KernelIdeal.Frame
import proofs.«162294_j48996986912815_2_alg».proof.Proof.RefReadP

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The contents at the first region's entry, as one fold of the three host stretches over the launch memory. -/
theorem W3_eq (b : DevRef τ sig) :
    W3 m ρ c b = StableHlo.after hostOps0_2 (StableHlo.after hostOps0_1 (StableHlo.after hostOps0 (W0 m ρ c))) b := rfl

/-! ## At the first region's entry -/

/-- The node features are the argument, untouched. -/
theorem V3_arg0 : V3 m ρ c main_arg0 = m ((c.tc : Thread nD τ).loc main_arg0) := by
  show StableHlo.after hostOps0_2 (StableHlo.after hostOps0_1 (StableHlo.after hostOps0 (W0 m ρ c))) (Proc.devRef .tc main_arg0) = _
  after_results_simp

set_option maxHeartbeats 4000000 in
/-- The evolved weight matrix is the plain program's, of the same four arguments. -/
theorem V3_v27 : V3 m ρ c main_v27
    = Cert.ReferenceIdeal.ReadP.val_main_v27 (F := Ideal) (m ((c.tc : Thread nD τ).loc main_arg1))
        (m ((c.tc : Thread nD τ).loc main_arg2)) (m ((c.tc : Thread nD τ).loc main_arg4)) (m ((c.tc : Thread nD τ).loc main_arg5)) := by
  show StableHlo.after hostOps0_2 (StableHlo.after hostOps0_1 (StableHlo.after hostOps0 (W0 m ρ c))) (Proc.devRef .tc main_v27) = _
  after_results_simp
  rfl

set_option maxHeartbeats 4000000 in
/-- The source words are the plain program's. -/
theorem V3_v31 : V3 m ρ c main_v31
    = Cert.ReferenceIdeal.ReadP.val_main_v31 (F := Ideal) (m ((c.tc : Thread nD τ).loc main_arg9)) := by
  show StableHlo.after hostOps0_2 (StableHlo.after hostOps0_1 (StableHlo.after hostOps0 (W0 m ρ c))) (Proc.devRef .tc main_v31) = _
  after_results_simp
  rfl

set_option maxHeartbeats 4000000 in
/-- The target words are the plain program's. -/
theorem V3_v34 : V3 m ρ c main_v34
    = Cert.ReferenceIdeal.ReadP.val_main_v34 (F := Ideal) (m ((c.tc : Thread nD τ).loc main_arg9)) := by
  show StableHlo.after hostOps0_2 (StableHlo.after hostOps0_1 (StableHlo.after hostOps0 (W0 m ρ c))) (Proc.devRef .tc main_v34) = _
  after_results_simp
  rfl

/-! The degree factors are computed in three stretches: the comparison, the inverse square root and the zero
    constant in the first; the select between them, a call of its own, in the second; the column form in the third. -/

set_option maxHeartbeats 4000000 in
theorem W1_v40 : W1 m ρ c (Proc.devRef .tc main_v40)
    = Cert.ReferenceIdeal.ReadP.val_main_v40 (F := Ideal) (m ((c.tc : Thread nD τ).loc main_arg9)) := by
  show StableHlo.after hostOps0 (W0 m ρ c) (Proc.devRef .tc main_v40) = _
  after_results_simp
  rfl

set_option maxHeartbeats 4000000 in
theorem W1_v43 : W1 m ρ c (Proc.devRef .tc main_v43)
    = Cert.ReferenceIdeal.ReadP.val_main_v43 (F := Ideal) (m ((c.tc : Thread nD τ).loc main_arg9)) := by
  show StableHlo.after hostOps0 (W0 m ρ c) (Proc.devRef .tc main_v43) = _
  after_results_simp
  rfl

set_option maxHeartbeats 4000000 in
theorem W1_cst_7 : W1 m ρ c (Proc.devRef .tc main_cst_7) = Cert.ReferenceIdeal.ReadP.val_main_cst_7 (F := Ideal) := by
  show StableHlo.after hostOps0 (W0 m ρ c) (Proc.devRef .tc main_cst_7) = _
  after_results_simp
  rfl

/-- The degree factors are the plain program's. -/
theorem W2_v44 : W2 m ρ c (Proc.devRef .tc main_v44)
    = Cert.ReferenceIdeal.ReadP.val_main_v44 (F := Ideal) (m ((c.tc : Thread nD τ).loc main_arg9)) := by
  have e40 := W1_v40 m ρ c
  have e43 := W1_v43 m ρ c
  have e7 := W1_cst_7 m ρ c
  show StableHlo.after hostOps0_1 (W1 m ρ c) (Proc.devRef .tc main_v44) = _
  generalize W1 m ρ c = V1 at e40 e43 e7 ⊢
  after_results_simp
  rw [e40, e43, e7]
  first
    | (simp only [StableHlo.TRef.toBuf, StableHlo.TRef.ofBuf, cast_eq]; rfl)
    | (set_option maxRecDepth 400000 in rfl)

/-- The degree factors, as a column: the plain program's factors, one per row. -/
theorem V3_v45 : V3 m ρ c main_v45
    = broadcastInDim S50000x1 ![0] bcast_S50000_S50000x1_0
        (Cert.ReferenceIdeal.ReadP.val_main_v44 (F := Ideal) (m ((c.tc : Thread nD τ).loc main_arg9))) := by
  have e44 := W2_v44 m ρ c
  show StableHlo.after hostOps0_2 (W2 m ρ c) (Proc.devRef .tc main_v45) = _
  generalize W2 m ρ c = V2 at e44 ⊢
  after_results_simp
  rw [e44]

/-! ## Through the first region: only its result array changes -/

/-- The first region's result array is what its pipeline leaves. -/
theorem W4_v46 : W4 m ρ c (Proc.devRef .tc main_v46) = (dat0 (V3 m ρ) c).arrAt 3 cfg0.N := W4_arr m ρ c 3

/-- The source words pass the first region untouched. -/
theorem W4_v31 : W4 m ρ c (Proc.devRef .tc main_v31)
    = Cert.ReferenceIdeal.ReadP.val_main_v31 (F := Ideal) (m ((c.tc : Thread nD τ).loc main_arg9)) :=
  (W4_of_ne m ρ c main_v31 (by decide)).trans (V3_v31 m ρ c)

/-- The target words pass the first region untouched. -/
theorem W4_v34 : W4 m ρ c (Proc.devRef .tc main_v34)
    = Cert.ReferenceIdeal.ReadP.val_main_v34 (F := Ideal) (m ((c.tc : Thread nD τ).loc main_arg9)) :=
  (W4_of_ne m ρ c main_v34 (by decide)).trans (V3_v34 m ρ c)

/-- The column of factors is an input of the first region: it leaves it as it entered. -/
theorem W4_v45 : W4 m ρ c (Proc.devRef .tc main_v45) = V3 m ρ c main_v45 :=
  (W4_arr m ρ c 2).trans (((dat0 (V3 m ρ) c).arrAt_in 2 rfl _).trans (A_eq0 (V3 m ρ) c 2))

/-! ## At the second region's entry -/

/-- The column of factors is still the plain program's factors, one per row. -/
theorem V5_v45 : V5 m ρ c main_v45
    = broadcastInDim S50000x1 ![0] bcast_S50000_S50000x1_0
        (Cert.ReferenceIdeal.ReadP.val_main_v44 (F := Ideal) (m ((c.tc : Thread nD τ).loc main_arg9))) := by
  show StableHlo.after hostOps1 (W4 m ρ c) (Proc.devRef .tc main_v45) = _
  after_results_simp
  exact (W4_v45 m ρ c).trans (V3_v45 m ρ c)

/-- The bias, the classifier's matrix and its offset are the arguments, untouched. -/
theorem V5_arg6 : V5 m ρ c main_arg6 = m ((c.tc : Thread nD τ).loc main_arg6) :=
  (((W6_arr m ρ c 2).trans (((dat1 (V5 m ρ) c).arrAt_in 2 rfl _).trans (A_eq1 (V5 m ρ) c 2))).symm).trans (W6_main_arg6 m ρ c)
theorem V5_arg7 : V5 m ρ c main_arg7 = m ((c.tc : Thread nD τ).loc main_arg7) :=
  (((W6_arr m ρ c 3).trans (((dat1 (V5 m ρ) c).arrAt_in 3 rfl _).trans (A_eq1 (V5 m ρ) c 3))).symm).trans (W6_main_arg7 m ρ c)
theorem V5_arg8 : V5 m ρ c main_arg8 = m ((c.tc : Thread nD τ).loc main_arg8) :=
  (((W6_arr m ρ c 4).trans (((dat1 (V5 m ρ) c).arrAt_in 4 rfl _).trans (A_eq1 (V5 m ρ) c 4))).symm).trans (W6_main_arg8 m ρ c)

set_option maxHeartbeats 4000000 in
/-- The aggregated rows: the first region's rows gathered at the normalised source words and added up at the
    target words, from zero. -/
theorem V5_v56 : V5 m ρ c main_v56
    = Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0
          (Cert.ReferenceIdeal.ReadP.val_main_v34 (F := Ideal) (m ((c.tc : Thread nD τ).loc main_arg9))))
        (Host.gather gather_S50000x128_S650000x1_S650000x128_1_0_n_n_0_1_1128 ((dat0 (V3 m ρ) c).arrAt 3 cfg0.N)
          (broadcastInDim S650000x1 ![0] bcast_S650000_S650000x1_0
            (Cert.ReferenceIdeal.ReadP.val_main_v49 (F := Ideal) (m ((c.tc : Thread nD τ).loc main_arg9))))) := by
  show StableHlo.after hostOps1 (W4 m ρ c) (Proc.devRef .tc main_v56) = _
  after_results_simp
  rw [W4_v46 m ρ c, W4_v34 m ρ c, W4_v31 m ρ c]
  rfl

end Cert.KernelIdeal.KHost

end
-- ==== Proof.LibRowGatherScatter.lean ====
/-
  Row gathers and row scatter-adds read at coordinates.

  What `x[idx]` and `jax.ops.segment_sum` lower to when the integer vector `idx : [E]` enters as start
  indices of shape `[E, 1]`:
   * a gather of single elements of a vector `x : [N]` (`take1Dims`), and of whole rows of a matrix
     `x : [N, C]` (`takeRowsDims`): result element `e` (row `e`) is the operand's at the start word
     `idx[e, 0]`, read as a signed integer and clamped into `[0, N − 1]`;
   * a scatter with an `add` body of a vector of updates `[E]` into `[N]` (`add1Dims`) and of rows
     `[E, C]` into `[N, C]` (`addRowsDims`): update `e` lands on element (row) `t` exactly when the start
     word `idx[e, 0]`, read signed and NOT clamped, is `t`; an update whose word is outside `[0, N)` is
     dropped.  On the extended reals the result at `t` is the operand's element plus the sum of the
     updates that land there.
-/
import Idealize.ShloMosaic.PureOps.Ideal
import Idealize.ShloMosaic.PureOps.Ideal.Laws
import Idealize.ShloMosaic.Lib.ValueIdx

noncomputable section

namespace Idealize.ShloMosaic.RowIdx

open Idealize.ShloMosaic Idealize.ShloMosaic.ValueIdx

variable {α : Type}

/-- The dimension numbers of `x[idx]` for `x : [N]`, start indices `[E, 1]`, result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of single elements read at `e`: the operand at the start word, signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of `x[idx]` for `x : [N, C]`, start indices `[E, 1]`, result `[E, C]`. -/
abbrev takeRowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, f)`: the operand's row at the start word, signed and clamped, column `f`. -/
theorem gather_takeRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (takeRowsDims N E C wf) x idx (ix2 e f)
      = x (ix2 ⟨min (idx (ix2 e 0)).toInt.toNat (N - 1), by omega⟩ f) := by
  unfold Host.gather
  congr 1
  funext a
  refine Fin.ext ?_
  show (takeRowsDims N E C wf).start (ix2 e f) idx a + (takeRowsDims N E C wf).batchCoord (ix2 e f) a
    + (takeRowsDims N E C wf).offCoord (ix2 e f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowsDims N E C wf).startIndexMap from List.mem_singleton.mpr rfl)]
    have hsi : (takeRowsDims N E C wf).siIdx (ix2 e f) ⟨List.idxOf (⟨0, by decide⟩ : Fin 2) (takeRowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hne : (⟨1, h1⟩ : Fin 2) ∉ ([0] : List (Fin 2)) := fun h =>
      Nat.one_ne_zero (congrArg Fin.val (List.mem_singleton.mp h))
    have hmem : (⟨1, h1⟩ : Fin 2) ∈ (takeRowsDims N E C wf).sKept :=
      (GatherDims.mem_sKept _ _).mpr ⟨hne, List.not_mem_nil⟩
    have hnot : (⟨1, h1⟩ : Fin 2) ∉ (takeRowsDims N E C wf).startIndexMap := hne
    unfold GatherDims.start GatherDims.offCoord
    rw [dif_neg hnot, dif_pos hmem]
    simp only [Nat.zero_add]
    rfl

/-- The dimension numbers of `segment_sum` of a vector `[E]` into `[N]`, scatter indices `[E, 1]`. -/
abbrev add1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `t` exactly when its start word, read signed, is `t`. -/
theorem add1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (t : Fin N) :
    (add1Dims N E wf).resultIdx? (ix1 e) idx = some (ix1 t) ↔ (idx (ix2 e 0)).toInt = (t.val : Int) := by
  have hstart : (add1Dims N E wf).start (ix1 e) idx 0 = (idx (ix2 e 0)).toInt := by
    unfold ScatterDims.start
    rw [dif_pos (show (0 : Fin 1) ∈ (add1Dims N E wf).scatterDimsToOperandDims from List.mem_singleton.mpr rfl)]
    have hsi : (add1Dims N E wf).siIdx (ix1 e) ⟨List.idxOf (0 : Fin 1) (add1Dims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (add1Dims N E wf).window (ix1 e) 0 = 0 := by
    unfold ScatterDims.window
    have hnk : (0 : Fin 1) ∉ (add1Dims N E wf).sKept := by
      intro h
      have h2 : (0 : Fin 1) ∉ ([0] : List (Fin 1)) := of_decide_eq_true (List.mem_filter.mp h).2
      exact h2 (List.mem_singleton.mpr rfl)
    rw [dif_neg hnk]
  unfold ScatterDims.resultIdx?
  constructor
  · intro h
    by_cases hc : ∀ a, 0 ≤ (add1Dims N E wf).start (ix1 e) idx a + (add1Dims N E wf).window (ix1 e) a
        ∧ (add1Dims N E wf).start (ix1 e) idx a + (add1Dims N E wf).window (ix1 e) a < (⟨1, ![N]⟩ : Shape).size a
    · rw [dif_pos hc] at h
      have h0 : ((add1Dims N E wf).start (ix1 e) idx 0 + ((add1Dims N E wf).window (ix1 e) 0 : Nat)).toNat = t.val :=
        congrArg Fin.val (congrFun (Option.some.inj h) 0)
      have hc0 := (hc 0).1
      rw [hstart, hwin] at h0 hc0
      omega
    · rw [dif_neg hc] at h
      exact absurd h (by simp)
  · intro h
    have hc : ∀ a, 0 ≤ (add1Dims N E wf).start (ix1 e) idx a + (add1Dims N E wf).window (ix1 e) a
        ∧ (add1Dims N E wf).start (ix1 e) idx a + (add1Dims N E wf).window (ix1 e) a < (⟨1, ![N]⟩ : Shape).size a := by
      intro a
      obtain rfl : a = 0 := Subsingleton.elim _ _
      rw [hstart, hwin, h]
      have ht : (t.val : Int) < (N : Int) := by exact_mod_cast t.isLt
      constructor
      · omega
      · show (t.val : Int) + ((0 : Nat) : Int) < (N : Int)
        omega
    rw [dif_pos hc]
    congr 1
    funext a
    obtain rfl : a = 0 := Subsingleton.elim _ _
    refine Fin.ext ?_
    show ((add1Dims N E wf).start (ix1 e) idx 0 + ((add1Dims N E wf).window (ix1 e) 0 : Nat)).toNat = t.val
    rw [hstart, hwin, h]
    omega

/-- The accumulating scatter of a vector on the extended reals, read at `t`. -/
theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (t : Fin N) :
    Ideal.hostScatterAdd (add1Dims N E wf) x idx upd (ix1 t)
      = x (ix1 t) + ∑ e ∈ Finset.univ.filter (fun e : Fin E => (idx (ix2 e 0)).toInt = (t.val : Int)), upd (ix1 e) := by
  show x (ix1 t) + ∑ j ∈ Finset.univ.filter (fun j => (add1Dims N E wf).resultIdx? j idx = some (ix1 t)), upd j = _
  congr 1
  refine Finset.sum_nbij' (fun j => (j 0 : Fin E)) (fun e => ix1 e) ?_ ?_ ?_ ?_ ?_
  · intro j hj
    obtain ⟨e, rfl⟩ : ∃ e, j = ix1 e := ⟨j 0, eq_ix1 j⟩
    exact Finset.mem_filter.mpr ⟨Finset.mem_univ _,
      (add1_resultIdx?_eq_some_iff wf idx e t).mp (Finset.mem_filter.mp hj).2⟩
  · intro e he
    exact Finset.mem_filter.mpr ⟨Finset.mem_univ _,
      (add1_resultIdx?_eq_some_iff wf idx e t).mpr (Finset.mem_filter.mp he).2⟩
  · intro j _
    exact (eq_ix1 j).symm
  · intro e _
    rfl
  · intro j _
    exact congrArg upd (eq_ix1 j)

/-- The dimension numbers of `segment_sum` of rows `[E, C]` into `[N, C]`, scatter indices `[E, 1]`. -/
abbrev addRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, f)` lands on `(t, g)` exactly when row `e`'s start word, read signed, is `t` and `f = g`. -/
theorem addRows_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (t : Fin N) (g : Fin C) :
    (addRowsDims N E C wf).resultIdx? (ix2 e f) idx = some (ix2 t g) ↔ (idx (ix2 e 0)).toInt = (t.val : Int) ∧ f = g := by
  have hne : (1 : Fin 2) ∉ ([0] : List (Fin 2)) := by decide
  have hstart0 : (addRowsDims N E C wf).start (ix2 e f) idx 0 = (idx (ix2 e 0)).toInt := by
    unfold ScatterDims.start
    rw [dif_pos (show (0 : Fin 2) ∈ (addRowsDims N E C wf).scatterDimsToOperandDims from List.mem_singleton.mpr rfl)]
    have hsi : (addRowsDims N E C wf).siIdx (ix2 e f) ⟨List.idxOf (0 : Fin 2) (addRowsDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addRowsDims N E C wf).start (ix2 e f) idx 1 = 0 := by
    unfold ScatterDims.start
    rw [dif_neg hne]
  have hwin0 : (addRowsDims N E C wf).window (ix2 e f) 0 = 0 := by
    unfold ScatterDims.window
    have hnk : (0 : Fin 2) ∉ (addRowsDims N E C wf).sKept := by
      intro h
      have h2 : (0 : Fin 2) ∉ ([0] : List (Fin 2)) := of_decide_eq_true (List.mem_filter.mp h).2
      exact h2 (List.mem_singleton.mpr rfl)
    rw [dif_neg hnk]
  have hwin1 : (addRowsDims N E C wf).window (ix2 e f) 1 = f.val := by
    unfold ScatterDims.window
    have hk : (1 : Fin 2) ∈ (addRowsDims N E C wf).sKept := List.mem_filter.mpr ⟨List.mem_finRange _, decide_eq_true hne⟩
    rw [dif_pos hk]
    rfl
  unfold ScatterDims.resultIdx?
  constructor
  · intro h
    by_cases hc : ∀ a, 0 ≤ (addRowsDims N E C wf).start (ix2 e f) idx a + (addRowsDims N E C wf).window (ix2 e f) a
        ∧ (addRowsDims N E C wf).start (ix2 e f) idx a + (addRowsDims N E C wf).window (ix2 e f) a < (⟨2, ![N, C]⟩ : Shape).size a
    · rw [dif_pos hc] at h
      have h0 : ((addRowsDims N E C wf).start (ix2 e f) idx 0 + ((addRowsDims N E C wf).window (ix2 e f) 0 : Nat)).toNat = t.val :=
        congrArg Fin.val (congrFun (Option.some.inj h) 0)
      have h1 : ((addRowsDims N E C wf).start (ix2 e f) idx 1 + ((addRowsDims N E C wf).window (ix2 e f) 1 : Nat)).toNat = g.val :=
        congrArg Fin.val (congrFun (Option.some.inj h) 1)
      have hc0 := (hc 0).1
      rw [hstart0, hwin0] at h0 hc0
      rw [hstart1, hwin1] at h1
      exact ⟨by omega, Fin.ext (by omega)⟩
    · rw [dif_neg hc] at h
      exact absurd h (by simp)
  · rintro ⟨h, rfl⟩
    have hc : ∀ a, 0 ≤ (addRowsDims N E C wf).start (ix2 e f) idx a + (addRowsDims N E C wf).window (ix2 e f) a
        ∧ (addRowsDims N E C wf).start (ix2 e f) idx a + (addRowsDims N E C wf).window (ix2 e f) a < (⟨2, ![N, C]⟩ : Shape).size a := by
      intro a
      match a with
      | ⟨0, _⟩ =>
        show 0 ≤ (addRowsDims N E C wf).start (ix2 e f) idx 0 + ((addRowsDims N E C wf).window (ix2 e f) 0 : Nat)
          ∧ (addRowsDims N E C wf).start (ix2 e f) idx 0 + ((addRowsDims N E C wf).window (ix2 e f) 0 : Nat) < (N : Int)
        rw [hstart0, hwin0, h]
        have := t.isLt
        omega
      | ⟨1, _⟩ =>
        show 0 ≤ (addRowsDims N E C wf).start (ix2 e f) idx 1 + ((addRowsDims N E C wf).window (ix2 e f) 1 : Nat)
          ∧ (addRowsDims N E C wf).start (ix2 e f) idx 1 + ((addRowsDims N E C wf).window (ix2 e f) 1 : Nat) < (C : Int)
        rw [hstart1, hwin1]
        have := f.isLt
        omega
    rw [dif_pos hc]
    congr 1
    funext a
    refine Fin.ext ?_
    match a with
    | ⟨0, _⟩ =>
      show ((addRowsDims N E C wf).start (ix2 e f) idx 0 + ((addRowsDims N E C wf).window (ix2 e f) 0 : Nat)).toNat = t.val
      rw [hstart0, hwin0, h]
      omega
    | ⟨1, _⟩ =>
      show ((addRowsDims N E C wf).start (ix2 e f) idx 1 + ((addRowsDims N E C wf).window (ix2 e f) 1 : Nat)).toNat = f.val
      rw [hstart1, hwin1]
      omega

/-- The accumulating scatter of rows on the extended reals, read at `(t, g)`. -/
theorem scatterAddRows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (t : Fin N) (g : Fin C) :
    Ideal.hostScatterAdd (addRowsDims N E C wf) x idx upd (ix2 t g)
      = x (ix2 t g) + ∑ e ∈ Finset.univ.filter (fun e : Fin E => (idx (ix2 e 0)).toInt = (t.val : Int)), upd (ix2 e g) := by
  show x (ix2 t g) + ∑ j ∈ Finset.univ.filter (fun j => (addRowsDims N E C wf).resultIdx? j idx = some (ix2 t g)), upd j = _
  congr 1
  refine Finset.sum_nbij' (fun j => (j 0 : Fin E)) (fun e => ix2 e g) ?_ ?_ ?_ ?_ ?_
  · intro j hj
    obtain ⟨e, f, rfl⟩ : ∃ e f, j = ix2 e f := ⟨j 0, j 1, eq_ix2 j⟩
    exact Finset.mem_filter.mpr ⟨Finset.mem_univ _,
      ((addRows_resultIdx?_eq_some_iff wf idx e f t g).mp (Finset.mem_filter.mp hj).2).1⟩
  · intro e he
    exact Finset.mem_filter.mpr ⟨Finset.mem_univ _,
      (addRows_resultIdx?_eq_some_iff wf idx e g t g).mpr ⟨(Finset.mem_filter.mp he).2, rfl⟩⟩
  · intro j hj
    obtain ⟨e, f, rfl⟩ : ∃ e f, j = ix2 e f := ⟨j 0, j 1, eq_ix2 j⟩
    have hfg := ((addRows_resultIdx?_eq_some_iff wf idx e f t g).mp (Finset.mem_filter.mp hj).2).2
    show ix2 e g = ix2 e f
    rw [hfg]
  · intro e _
    rfl
  · intro j hj
    obtain ⟨e, f, rfl⟩ : ∃ e f, j = ix2 e f := ⟨j 0, j 1, eq_ix2 j⟩
    have hfg := ((addRows_resultIdx?_eq_some_iff wf idx e f t g).mp (Finset.mem_filter.mp hj).2).2
    show upd (ix2 e f) = upd (ix2 e g)
    rw [hfg]

end Idealize.ShloMosaic.RowIdx

end
-- ==== Proof.KValue.lean ====
/-
  The two-region program's result, index by index, as the form that scales at the source and at the target.

  Row `t` of the second region's result array is the classifier applied to
      dis t · (aggregated row t) + bias,
  where the aggregated row is the sum, over the edges whose target word is `t`, of the first region's row at
  the edge's normalised and clamped source word, and the first region's row `v` is `(x · W) v` scaled by `dis v`.
  Each piece is read where it was computed: the regions' arrays by their closed forms, the host stretches by the
  row gather and the accumulating row scatter read at coordinates.
-/
import proofs.«162294_j48996986912815_2_alg».proof.Proof.KRegion0
import proofs.«162294_j48996986912815_2_alg».proof.Proof.KRegion1
import proofs.«162294_j48996986912815_2_alg».proof.Proof.KHost
import proofs.«162294_j48996986912815_2_alg».proof.Proof.LibRowGatherScatter
import proofs.«162294_j48996986912815_2_alg».proof.Proof.Spec
import Idealize.ShloMosaic.Lib.IdealHost

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx

/-- A vector broadcast to a column, read at row `v`: the vector's entry `v`. -/
theorem bcast_col_apply {α : Type} {n : Nat} (hn : n ≠ 1)
    (h : (⟨1, ![n]⟩ : Shape).BroadcastsInDim ⟨2, ![n, 1]⟩ ![0]) (x : (⟨1, ![n]⟩ : Shape).Idx → α) (v : Fin n) :
    broadcastInDim ⟨2, ![n, 1]⟩ ![0] h x (ix2 v 0) = x (ix1 v) :=
  broadcastInDim_apply _ h x _ _ (fun a => match a with
    | ⟨0, _⟩ => by show v.val = if n = 1 then 0 else v.val; rw [if_neg hn])

variable (m : (ℓ : Loc nD τ sig) → Buf (Elt Ideal) ℓ) (ρ : Dev nD → PrngReg) (c : Dev nD)

/-- The arguments' launch contents. -/
abbrev A0 : S50000x128.Idx → EReal := m ((c.tc : Thread nD τ).loc main_arg0)
abbrev A1 : S128x128.Idx → EReal := m ((c.tc : Thread nD τ).loc main_arg1)
abbrev A2 : S512x128.Idx → EReal := m ((c.tc : Thread nD τ).loc main_arg2)
abbrev A4 : S512.Idx → EReal := m ((c.tc : Thread nD τ).loc main_arg4)
abbrev A5 : S512.Idx → EReal := m ((c.tc : Thread nD τ).loc main_arg5)
abbrev A6 : S128.Idx → EReal := m ((c.tc : Thread nD τ).loc main_arg6)
abbrev A7 : S2x128.Idx → EReal := m ((c.tc : Thread nD τ).loc main_arg7)
abbrev A8 : S2.Idx → EReal := m ((c.tc : Thread nD τ).loc main_arg8)
abbrev A9 : S2x600000.Idx → BitVec 32 := m ((c.tc : Thread nD τ).loc main_arg9)

/-- The transformed features of the arguments. -/
abbrev xW (v : Fin 50000) (f : Fin 128) : EReal :=
  Cert.GcnSpec.feat (fun v k => (A0 m c) (ix2 v k))
    (fun k f => Cert.ReferenceIdeal.ReadP.val_main_v27 (F := Ideal) (A1 m c) (A2 m c) (A4 m c) (A5 m c) (ix2 k f)) v f

/-- The degree factor of node `v`. -/
abbrev disAt (v : Fin 50000) : EReal := Cert.ReferenceIdeal.ReadP.val_main_v44 (F := Ideal) (A9 m c) (ix1 v)

/-- Row `v` of the first region's result: the transformed features of `v`, scaled by `v`'s factor. -/
theorem rows_apply (v : Fin 50000) (f : Fin 128) :
    ((dat0 (V3 m ρ) c).arrAt 3 cfg0.N : S50000x128.Idx → EReal) (ix2 v f) = xW m c v f * disAt m c v := by
  rw [region0_apply (V3 m ρ) c v f, KHost.V3_arg0 m ρ c, KHost.V3_v27 m ρ c, KHost.V3_v45 m ρ c]
  exact congrArg (xW m c v f * ·) (bcast_col_apply (by decide) bcast_S50000_S50000x1_0 _ v)

/-- The row gather of this program, over any operands: row `e` of the result is the operand's row at the start
    word `w` of `e`, read signed and clamped. -/
theorem gather_rows_at (y : S50000x128.Idx → EReal) (idx : IVec S650000x1 32) (w : BitVec 32) (e : Fin 650000)
    (f : Fin 128) (hw : idx (ix2 e 0) = w) :
    Host.gather gather_S50000x128_S650000x1_S650000x128_1_0_n_n_0_1_1128 y idx (ix2 e f)
      = y (ix2 (Cert.GcnSpec.clampIdx 50000 (by decide) w) f) := by
  subst hw
  have hg : gather_S50000x128_S650000x1_S650000x128_1_0_n_n_0_1_1128
      = RowIdx.takeRowsDims 50000 650000 128 Facts₀.gather_S50000x128_S650000x1_S650000x128_1_0_n_n_0_1_1128_wf := rfl
  rw [hg]
  exact RowIdx.gather_takeRows_apply (by decide) _ y idx e f

/-- The accumulating row scatter of this program, over any operands whose start words are `colw`: row `t` of the
    result is the operand's row plus the sum of the update rows of the edges into `t`. -/
theorem scatter_rows_at (x : FVec Ideal S50000x128 .f32) (idx : IVec S650000x1 32) (colw : Fin 650000 → BitVec 32)
    (u : FVec Ideal S650000x128 .f32) (t : Fin 50000) (g : Fin 128) (h : ∀ e, idx (ix2 e 0) = colw e) :
    Host.scatterAdd (F := Ideal) (φ := .f32) scatter_S50000x128_S650000x1_S650000x128_1_0_0_1 x idx u (ix2 t g)
      = x (ix2 t g) + ∑ e ∈ Cert.GcnSpec.edgesTo colw t, u (ix2 e g) := by
  have hs : scatter_S50000x128_S650000x1_S650000x128_1_0_0_1
      = RowIdx.addRowsDims 50000 650000 128 Facts₀.scatter_S50000x128_S650000x1_S650000x128_1_0_0_1_wf := rfl
  simp only [Host.scatterAdd, Ideal.hostScatterAdd_def]
  rw [hs, RowIdx.scatterAddRows_apply]
  unfold Cert.GcnSpec.edgesTo
  exact congrArg (x (ix2 t g) + ·) (Finset.sum_congr (Finset.filter_congr fun e _ => by rw [h e]) fun _ _ => rfl)

/-- The aggregated row `t`: from zero, the sum over the edges into `t` of the first region's row at the edge's
    source. -/
theorem aggregated_apply (t : Fin 50000) (f : Fin 128) :
    (V5 m ρ c main_v56 : S50000x128.Idx → EReal) (ix2 t f)
      = 0 + ∑ e ∈ Cert.GcnSpec.edgesTo (fun e => Cert.ReferenceIdeal.ReadP.val_main_v34 (F := Ideal) (A9 m c) (ix1 e)) t,
          xW m c (Cert.GcnSpec.clampIdx 50000 (by decide) (Cert.ReferenceIdeal.ReadP.val_main_v49 (F := Ideal) (A9 m c) (ix1 e))) f
            * disAt m c (Cert.GcnSpec.clampIdx 50000 (by decide) (Cert.ReferenceIdeal.ReadP.val_main_v49 (F := Ideal) (A9 m c) (ix1 e))) := by
  rw [KHost.V5_v56 m ρ c]
  refine (scatter_rows_at _ _ (fun e => Cert.ReferenceIdeal.ReadP.val_main_v34 (F := Ideal) (A9 m c) (ix1 e)) _ t f
    (fun e => bcast_col_apply (by decide) bcast_S650000_S650000x1_0 _ e)).trans ?_
  refine congrArg₂ (· + ·) ?_ (Finset.sum_congr rfl fun e _ => ?_)
  · rw [broadcastInDim_scalar_apply, constant_apply, Ideal.ofBits_zero_f32]
  · refine (gather_rows_at _ _ (Cert.ReferenceIdeal.ReadP.val_main_v49 (F := Ideal) (A9 m c) (ix1 e)) e f
      (bcast_col_apply (by decide) bcast_S650000_S650000x1_0 _ e)).trans ?_
    exact rows_apply m ρ c _ f

/-- THE KERNEL'S VALUE at `(t, q)`. -/
theorem kernel_value (t : Fin 50000) (q : Fin 2) :
    (W6 m ρ c (Proc.devRef .tc main_v57) : S50000x2.Idx → EReal) (ix2 t q)
      = Cert.GcnSpec.kerForm (N := 50000) (E := 650000) (by decide)
          (fun v k => (A0 m c) (ix2 v k))
          (fun k f => Cert.ReferenceIdeal.ReadP.val_main_v27 (F := Ideal) (A1 m c) (A2 m c) (A4 m c) (A5 m c) (ix2 k f))
          (fun v => Cert.ReferenceIdeal.ReadP.val_main_v44 (F := Ideal) (A9 m c) (ix1 v))
          (fun e => Cert.ReferenceIdeal.ReadP.val_main_v49 (F := Ideal) (A9 m c) (ix1 e))
          (fun e => Cert.ReferenceIdeal.ReadP.val_main_v34 (F := Ideal) (A9 m c) (ix1 e))
          (fun f => (A6 m c) (ix1 f)) (fun q f => (A7 m c) (ix2 q f))
          (fun q => (A8 m c) (ix1 q)) t q := by
  have h1 : W6 m ρ c (Proc.devRef .tc main_v57) = (dat1 (V5 m ρ) c).arrAt 5 cfg1.N := W6_arr m ρ c 5
  rw [h1, region1_apply (V5 m ρ) c t q, KHost.V5_arg6 m ρ c, KHost.V5_arg7 m ρ c, KHost.V5_arg8 m ρ c]
  unfold Cert.GcnSpec.kerForm
  refine congrArg (fun h => Cert.GcnSpec.classify h _ _ q) (funext fun f => ?_)
  rw [aggregated_apply m ρ c t f, KHost.V5_v45 m ρ c, bcast_col_apply (by decide) bcast_S50000_S50000x1_0 _ t]

end Cert.KernelIdeal.KVal

end
-- ==== Proof.RefRead.lean ====
/-
  The reference program's result read at a node and a class: the graph convolution of Spec.lean.

  The stages that the generated reading does not cover are the three gathers and the row scatter-add.
  Each is read here at coordinates: a gather of the inverse square-root degrees (or of the rows of the
  transformed features) at a column of start words is the operand at the word, read signed and clamped;
  the scatter-add of the message rows into a zero matrix is, at row `t`, the sum of the messages of the
  edges whose target word is `t`.  The pointwise stages in between are read through the generated
  lemmas, and the whole is the specification's `refForm`.
-/
import proofs.«162294_j48996986912815_2_alg».proof.Proof.RefReadP
import proofs.«162294_j48996986912815_2_alg».proof.Proof.Spec
import proofs.«162294_j48996986912815_2_alg».proof.Proof.LibRowGatherScatter

noncomputable section

namespace Cert.ReferenceIdeal.RefValue

open Cert.ReferenceIdeal Cert.ReferenceIdeal.ReadP Idealize.ShloMosaic Idealize.ShloMosaic.ValueIdx
open Cert.GcnSpec

/-- The graph has at least one node. -/
theorem nodes_pos : 0 < 50000 := by decide

/-! ## The layout stages' index functions at coordinates -/

theorem col_v50 (e : Fin 650000) : idx_main_v50 (ix2 e (0 : Fin 1)) = ix1 e := by
  funext a; match a with | ⟨0, _⟩ => rfl
theorem col_v57 (e : Fin 650000) : idx_main_v57 (ix2 e (0 : Fin 1)) = ix1 e := by
  funext a; match a with | ⟨0, _⟩ => rfl
theorem col_v61 (e : Fin 650000) : idx_main_v61 (ix2 e (0 : Fin 1)) = ix1 e := by
  funext a; match a with | ⟨0, _⟩ => rfl
theorem col_v67 (e : Fin 650000) : idx_main_v67 (ix2 e (0 : Fin 1)) = ix1 e := by
  funext a; match a with | ⟨0, _⟩ => rfl
theorem col_v72 (e : Fin 650000) : idx_main_v72 (ix2 e (0 : Fin 1)) = ix1 e := by
  funext a; match a with | ⟨0, _⟩ => rfl
theorem row_v69 (e : Fin 650000) (f : Fin 128) : idx_main_v69 (ix2 e f) = ix2 e (0 : Fin 1) := by
  funext a; match a with | ⟨0, _⟩ => rfl | ⟨1, _⟩ => rfl
theorem row_v75 (t : Fin 50000) (f : Fin 128) : idx_main_v75 (ix2 t f) = ix2 (0 : Fin 1) f := by
  funext a; match a with | ⟨0, _⟩ => rfl | ⟨1, _⟩ => rfl
theorem row_v74 (f : Fin 128) : idx_main_v74 (ix2 (0 : Fin 1) f) = ix1 f := by
  funext a; match a with | ⟨0, _⟩ => rfl
theorem row_v81 (t : Fin 50000) (q : Fin 2) : idx_main_v81 (ix2 t q) = ix2 (0 : Fin 1) q := by
  funext a; match a with | ⟨0, _⟩ => rfl | ⟨1, _⟩ => rfl
theorem row_v80 (q : Fin 2) : idx_main_v80 (ix2 (0 : Fin 1) q) = ix1 q := by
  funext a; match a with | ⟨0, _⟩ => rfl
theorem tr_v78 (k : Fin 128) (q : Fin 2) : idx_main_v78 (ix2 k q) = ix2 q k := by
  funext a; match a with | ⟨0, _⟩ => rfl | ⟨1, _⟩ => rfl
theorem lhs_v60 (v : Fin 50000) (f k : Fin 128) : lidx_main_v60 (ix2 v f) k = ix2 v k := by
  funext a; match a with | ⟨0, _⟩ => rfl | ⟨1, _⟩ => rfl
theorem rhs_v60 (v : Fin 50000) (f k : Fin 128) : ridx_main_v60 (ix2 v f) k = ix2 k f := by
  funext a; match a with | ⟨0, _⟩ => rfl | ⟨1, _⟩ => rfl
theorem lhs_v79 (t : Fin 50000) (q : Fin 2) (k : Fin 128) : lidx_main_v79 (ix2 t q) k = ix2 t k := by
  funext a; match a with | ⟨0, _⟩ => rfl | ⟨1, _⟩ => rfl
theorem rhs_v79 (t : Fin 50000) (q : Fin 2) (k : Fin 128) : ridx_main_v79 (ix2 t q) k = ix2 k q := by
  funext a; match a with | ⟨0, _⟩ => rfl | ⟨1, _⟩ => rfl

/-! ## Gathers and the scatter-add at a column of words, over arbitrary operands -/

/-- A gather of single elements at a column of start words: the operand at the word, read signed and clamped. -/
theorem take1_at (d : FVec Ideal S50000 .f32) (idx : IVec S650000x1 32)
    (e : Fin 650000) (w : BitVec 32) (hw : idx (ix2 e (0 : Fin 1)) = w) :
    Host.gather gather_S50000_S650000x1_S650000_n_0_n_n_0_1_1 d idx (ix1 e) = d (ix1 (clampIdx 50000 nodes_pos w)) := by
  subst hw
  exact RowIdx.gather_take1_apply (N := 50000) (E := 650000) nodes_pos
    Facts₀.gather_S50000_S650000x1_S650000_n_0_n_n_0_1_1_wf d idx e

/-- A gather of rows at a column of start words: the operand's row at the word, read signed and clamped. -/
theorem takeRows_at (y : FVec Ideal S50000x128 .f32) (idx : IVec S650000x1 32)
    (e : Fin 650000) (f : Fin 128) (w : BitVec 32) (hw : idx (ix2 e (0 : Fin 1)) = w) :
    Host.gather gather_S50000x128_S650000x1_S650000x128_1_0_n_n_0_1_1128 y idx (ix2 e f)
      = y (ix2 (clampIdx 50000 nodes_pos w) f) := by
  subst hw
  exact RowIdx.gather_takeRows_apply (N := 50000) (E := 650000) (C := 128) nodes_pos
    Facts₀.gather_S50000x128_S650000x1_S650000x128_1_0_n_n_0_1_1128_wf y idx e f

/-- A scatter-add of rows at a column of target words: at row `t`, the operand plus the sum of the update rows
    of the edges whose word, read signed, is `t`. -/
theorem addRows_at (x : FVec Ideal S50000x128 .f32) (idx : IVec S650000x1 32)
    (u : FVec Ideal S650000x128 .f32) (colw : Fin 650000 → BitVec 32)
    (hw : ∀ e, idx (ix2 e (0 : Fin 1)) = colw e) (t : Fin 50000) (g : Fin 128) :
    Host.scatterAdd scatter_S50000x128_S650000x1_S650000x128_1_0_0_1 x idx u (ix2 t g)
      = x (ix2 t g) + ∑ e ∈ edgesTo colw t, u (ix2 e g) := by
  simp only [Host.scatterAdd, Ideal.hostScatterAdd_def]
  refine (RowIdx.scatterAddRows_apply (N := 50000) (E := 650000) (C := 128)
    Facts₀.scatter_S50000x128_S650000x1_S650000x128_1_0_0_1_wf x idx u t g).trans ?_
  unfold edgesTo
  refine congrArg (fun s : EReal => x (ix2 t g) + s) (Finset.sum_congr (Finset.filter_congr fun e _ => ?_) fun _ _ => rfl)
  rw [hw e]

/-! ## The columns of start words -/

/-- The two computations of the normalised source words are one vector. -/
theorem srcWords_eq (x9 : (⟨S2x600000, .i32⟩ : BufTy).Contents (Elt Ideal)) :
    val_main_v66 (F := Ideal) x9 = val_main_v49 (F := Ideal) x9 := rfl

theorem srcWord_at (x9 : (⟨S2x600000, .i32⟩ : BufTy).Contents (Elt Ideal)) (e : Fin 650000) :
    val_main_v50 (F := Ideal) x9 (ix2 e (0 : Fin 1)) = val_main_v49 (F := Ideal) x9 (ix1 e) := by
  rw [val_main_v50_apply, col_v50]
theorem tgtWord_at (x9 : (⟨S2x600000, .i32⟩ : BufTy).Contents (Elt Ideal)) (e : Fin 650000) :
    val_main_v57 (F := Ideal) x9 (ix2 e (0 : Fin 1)) = val_main_v56 (F := Ideal) x9 (ix1 e) := by
  rw [val_main_v57_apply, col_v57]
theorem srcRowWord_at (x9 : (⟨S2x600000, .i32⟩ : BufTy).Contents (Elt Ideal)) (e : Fin 650000) :
    val_main_v67 (F := Ideal) x9 (ix2 e (0 : Fin 1)) = val_main_v49 (F := Ideal) x9 (ix1 e) := by
  rw [val_main_v67_apply, col_v67, srcWords_eq]
theorem rawTgtWord_at (x9 : (⟨S2x600000, .i32⟩ : BufTy).Contents (Elt Ideal)) (e : Fin 650000) :
    val_main_v72 (F := Ideal) x9 (ix2 e (0 : Fin 1)) = val_main_v34 (F := Ideal) x9 (ix1 e) := by
  rw [val_main_v72_apply, col_v72]

/-! ## The program's gathers and scatter-add -/
/-- The inverse square-root degree gathered at the source of edge `e`. -/
theorem disSrc_apply (x9 : (⟨S2x600000, .i32⟩ : BufTy).Contents (Elt Ideal)) (e : Fin 650000) :
    val_main_v51 (F := Ideal) x9 (ix1 e)
      = val_main_v44 (F := Ideal) x9 (ix1 (clampIdx 50000 nodes_pos (val_main_v49 (F := Ideal) x9 (ix1 e)))) := by
  unfold val_main_v51
  exact take1_at _ _ e _ (srcWord_at x9 e)

/-- The inverse square-root degree gathered at the target of edge `e`. -/
theorem disTgt_apply (x9 : (⟨S2x600000, .i32⟩ : BufTy).Contents (Elt Ideal)) (e : Fin 650000) :
    val_main_v58 (F := Ideal) x9 (ix1 e)
      = val_main_v44 (F := Ideal) x9 (ix1 (clampIdx 50000 nodes_pos (val_main_v56 (F := Ideal) x9 (ix1 e)))) := by
  unfold val_main_v58
  exact take1_at _ _ e _ (tgtWord_at x9 e)

/-- The transformed features at node `v`, feature `f`: the contraction `∑ k, x v k · W k f`. -/
theorem xw_apply (x0 : (⟨S50000x128, .f32⟩ : BufTy).Contents (Elt Ideal)) (x1 : (⟨S128x128, .f32⟩ : BufTy).Contents (Elt Ideal))
    (x2 : (⟨S512x128, .f32⟩ : BufTy).Contents (Elt Ideal)) (x4 x5 : (⟨S512, .f32⟩ : BufTy).Contents (Elt Ideal))
    (v : Fin 50000) (f : Fin 128) :
    val_main_v60 (F := Ideal) x0 x1 x2 x4 x5 (ix2 v f)
      = feat (fun v k => x0 (ix2 v k)) (fun k f => val_main_v27 (F := Ideal) x1 x2 x4 x5 (ix2 k f)) v f := by
  rw [val_main_v60_apply]
  generalize val_main_v27 (F := Ideal) x1 x2 x4 x5 = W
  unfold feat
  refine Finset.sum_congr rfl fun k _ => ?_
  rw [lhs_v60, rhs_v60]

/-- The row of transformed features gathered at the source of edge `e`. -/
theorem rows_apply (x0 : (⟨S50000x128, .f32⟩ : BufTy).Contents (Elt Ideal)) (x1 : (⟨S128x128, .f32⟩ : BufTy).Contents (Elt Ideal))
    (x2 : (⟨S512x128, .f32⟩ : BufTy).Contents (Elt Ideal)) (x4 x5 : (⟨S512, .f32⟩ : BufTy).Contents (Elt Ideal))
    (x9 : (⟨S2x600000, .i32⟩ : BufTy).Contents (Elt Ideal)) (e : Fin 650000) (f : Fin 128) :
    val_main_v68 (F := Ideal) x0 x1 x2 x4 x5 x9 (ix2 e f)
      = val_main_v60 (F := Ideal) x0 x1 x2 x4 x5
          (ix2 (clampIdx 50000 nodes_pos (val_main_v49 (F := Ideal) x9 (ix1 e))) f) := by
  unfold val_main_v68
  exact takeRows_at _ _ e f _ (srcRowWord_at x9 e)

/-- The message of edge `e` at feature `f`: both normalising factors times the source's transformed features. -/
theorem msg_apply (x0 : (⟨S50000x128, .f32⟩ : BufTy).Contents (Elt Ideal)) (x1 : (⟨S128x128, .f32⟩ : BufTy).Contents (Elt Ideal))
    (x2 : (⟨S512x128, .f32⟩ : BufTy).Contents (Elt Ideal)) (x4 x5 : (⟨S512, .f32⟩ : BufTy).Contents (Elt Ideal))
    (x9 : (⟨S2x600000, .i32⟩ : BufTy).Contents (Elt Ideal)) (e : Fin 650000) (f : Fin 128) :
    val_main_v70 (F := Ideal) x0 x1 x2 x4 x5 x9 (ix2 e f)
      = (val_main_v44 (F := Ideal) x9 (ix1 (clampIdx 50000 nodes_pos (val_main_v49 (F := Ideal) x9 (ix1 e))))
          * val_main_v44 (F := Ideal) x9 (ix1 (clampIdx 50000 nodes_pos (val_main_v56 (F := Ideal) x9 (ix1 e)))))
        * feat (fun v k => x0 (ix2 v k)) (fun k f => val_main_v27 (F := Ideal) x1 x2 x4 x5 (ix2 k f))
            (clampIdx 50000 nodes_pos (val_main_v49 (F := Ideal) x9 (ix1 e))) f := by
  rw [val_main_v70_apply, val_main_v69_apply, row_v69, val_main_v61_apply, col_v61, val_main_v59_apply,
    disSrc_apply, disTgt_apply, rows_apply, xw_apply]
  rfl

/-- The aggregate at node `t`, feature `g`: zero plus the sum of the messages of the edges whose target word is `t`. -/
theorem agg_apply (x0 : (⟨S50000x128, .f32⟩ : BufTy).Contents (Elt Ideal)) (x1 : (⟨S128x128, .f32⟩ : BufTy).Contents (Elt Ideal))
    (x2 : (⟨S512x128, .f32⟩ : BufTy).Contents (Elt Ideal)) (x4 x5 : (⟨S512, .f32⟩ : BufTy).Contents (Elt Ideal))
    (x9 : (⟨S2x600000, .i32⟩ : BufTy).Contents (Elt Ideal)) (t : Fin 50000) (g : Fin 128) :
    val_main_v73 (F := Ideal) x0 x1 x2 x4 x5 x9 (ix2 t g)
      = 0 + ∑ e ∈ edgesTo (fun e => val_main_v34 (F := Ideal) x9 (ix1 e)) t,
          val_main_v70 (F := Ideal) x0 x1 x2 x4 x5 x9 (ix2 e g) := by
  unfold val_main_v73
  refine (addRows_at _ _ _ (fun e => val_main_v34 (F := Ideal) x9 (ix1 e)) (rawTgtWord_at x9) t g).trans ?_
  rw [val_main_v71_apply, val_main_cst_13_apply, Ideal.ofBits_def, Ideal.ofBits_zero_f32]

/-- The hidden layer at node `t`, feature `f`, after the rectifier. -/
theorem hidden_apply (x0 : (⟨S50000x128, .f32⟩ : BufTy).Contents (Elt Ideal)) (x1 : (⟨S128x128, .f32⟩ : BufTy).Contents (Elt Ideal))
    (x2 : (⟨S512x128, .f32⟩ : BufTy).Contents (Elt Ideal)) (x4 x5 : (⟨S512, .f32⟩ : BufTy).Contents (Elt Ideal))
    (x6 : (⟨S128, .f32⟩ : BufTy).Contents (Elt Ideal)) (x9 : (⟨S2x600000, .i32⟩ : BufTy).Contents (Elt Ideal))
    (t : Fin 50000) (f : Fin 128) :
    val_main_v77 (F := Ideal) x0 x1 x2 x4 x5 x6 x9 (ix2 t f)
      = max ((0 + ∑ e ∈ edgesTo (fun e => val_main_v34 (F := Ideal) x9 (ix1 e)) t,
          (val_main_v44 (F := Ideal) x9 (ix1 (clampIdx 50000 nodes_pos (val_main_v49 (F := Ideal) x9 (ix1 e))))
            * val_main_v44 (F := Ideal) x9 (ix1 (clampIdx 50000 nodes_pos (val_main_v56 (F := Ideal) x9 (ix1 e)))))
          * feat (fun v k => x0 (ix2 v k)) (fun k f => val_main_v27 (F := Ideal) x1 x2 x4 x5 (ix2 k f))
              (clampIdx 50000 nodes_pos (val_main_v49 (F := Ideal) x9 (ix1 e))) f) + x6 (ix1 f)) 0 := by
  rw [val_main_v77_apply, val_main_v76_apply, agg_apply, val_main_v75_apply, row_v75, val_main_v74_apply, row_v74,
    val_main_call1_v0_apply, val_main_call1_cst_apply, Ideal.ofBits_def, Ideal.ofBits_zero_f32,
    Finset.sum_congr rfl fun e _ => msg_apply x0 x1 x2 x4 x5 x9 e f]
  rfl

/-! ## The result -/

/-- The reference's result at node `t`, class `q`, is the specification's message-scaling form. -/
theorem result_apply (x0 : (⟨S50000x128, .f32⟩ : BufTy).Contents (Elt Ideal)) (x1 : (⟨S128x128, .f32⟩ : BufTy).Contents (Elt Ideal))
    (x2 : (⟨S512x128, .f32⟩ : BufTy).Contents (Elt Ideal)) (x4 x5 : (⟨S512, .f32⟩ : BufTy).Contents (Elt Ideal))
    (x6 : (⟨S128, .f32⟩ : BufTy).Contents (Elt Ideal)) (x7 : (⟨S2x128, .f32⟩ : BufTy).Contents (Elt Ideal))
    (x8 : (⟨S2, .f32⟩ : BufTy).Contents (Elt Ideal)) (x9 : (⟨S2x600000, .i32⟩ : BufTy).Contents (Elt Ideal))
    (t : Fin 50000) (q : Fin 2) :
    val_main_v82 (F := Ideal) x0 x1 x2 x4 x5 x6 x7 x8 x9 (ix2 t q)
      = Cert.GcnSpec.refForm (N := 50000) (E := 650000) (by decide)
          (fun v k => x0 (ix2 v k))
          (fun k f => val_main_v27 (F := Ideal) x1 x2 x4 x5 (ix2 k f))
          (fun v => val_main_v44 (F := Ideal) x9 (ix1 v))
          (fun e => val_main_v49 (F := Ideal) x9 (ix1 e))
          (fun e => val_main_v56 (F := Ideal) x9 (ix1 e))
          (fun e => val_main_v34 (F := Ideal) x9 (ix1 e))
          (fun f => x6 (ix1 f)) (fun q f => x7 (ix2 q f)) (fun q => x8 (ix1 q)) t q := by
  rw [val_main_v82_apply, val_main_v79_apply, val_main_v81_apply, row_v81, val_main_v80_apply, row_v80,
    Ideal.addf_def]
  unfold refForm classify
  refine congrArg (fun s : EReal => s + x8 (ix1 q)) (Finset.sum_congr rfl fun k _ => ?_)
  rw [lhs_v79, rhs_v79, val_main_v78_apply, tr_v78, hidden_apply]

end Cert.ReferenceIdeal.RefValue

end
-- ==== Proof.DegreeFactor.lean ====
/-
  The normalisation factor of a node is a non-negative real.

  A node's degree is a finite sum of ones (one per edge into it, its self-loop included), so it is a natural
  number; the factor is the inverse square root of `max degree 1`, a real at least one, when the degree is
  positive, and zero otherwise. Either way it is a real `r ≥ 0` — never an infinity, whatever the edge list
  holds — which is what lets a product with it distribute over a sum of extended reals.
-/
import Idealize.ShloMosaic.PureOps.Ideal
import Idealize.ShloMosaic.Lib.ValueIdx
import Idealize.ShloMosaic.Lib.IdealHost

noncomputable section

namespace Cert.GcnSpec

open Idealize.ShloMosaic

/-- The inverse square root of a real at least one is a non-negative real. -/
theorem rsqrt_of_one_le (r : ℝ) (hr : 1 ≤ r) : ∃ s : ℝ, 0 ≤ s ∧ Ideal.rsqrt (r : EReal) = (s : EReal) := by
  refine ⟨(Real.sqrt r)⁻¹, inv_nonneg.2 (Real.sqrt_nonneg r), ?_⟩
  rw [Ideal.rsqrt_coe, if_neg (by linarith), if_neg (by linarith)]

/-- The factor of a node whose incoming edges are `s`, whichever way the comparison `degree > 0` came out:
    the inverse square root of `max (0 + ∑ over s of 1) 1`, or zero. -/
theorem degree_factor_real {ι : Type} (s : Finset ι) (b : BitVec 1) :
    ∃ r : ℝ, 0 ≤ r ∧
      Scalar.select b
        (Ideal.rsqrt (max (Ideal.ofBits .f32 0x00000000#32 + ∑ _e ∈ s, Ideal.ofBits .f32 0x3F800000#32)
          (Ideal.ofBits .f32 0x3F800000#32)))
        (Ideal.ofBits .f32 0x00000000#32) = (r : EReal) := by
  rcases BitVec.eq_zero_or_eq_one b with h | h
  · subst h
    exact ⟨0, le_refl 0, by rw [ValueIdx.select_zero, Ideal.ofBits_zero_f32]; rfl⟩
  · subst h
    rw [ValueIdx.select_one, Ideal.ofBits_zero_f32, Ideal.ofBits_one_f32, zero_add, Finset.sum_const, nsmul_one,
      ← EReal.coe_natCast, ← EReal.coe_one, ← EReal.coe_strictMono.monotone.map_max]
    exact rsqrt_of_one_le _ (le_max_right _ _)

end Cert.GcnSpec

end
-- ==== Proof.EdgeWords.lean ====
/-
  An edge word that names a node survives normalisation and clamping.

  An index word is normalised before a gather reads it (a negative word is shifted up by the number of nodes)
  and the gather then clamps it into range. A word whose signed value is already a node `t` is not negative, so
  the normalisation leaves it alone, and `t` is in range, so the clamp leaves it alone too: the gather reads
  at `t`.
-/
import proofs.«162294_j48996986912815_2_alg».proof.Proof.Spec

noncomputable section

namespace Cert.GcnSpec

open Idealize.ShloMosaic

/-- A word whose signed value is a natural number is not below zero. -/
theorem cmpi_slt_zero_of_toInt_nonneg (w : BitVec 32) (h : 0 ≤ w.toInt) : IntOp.cmpi .slt w 0#32 = 0#1 := by
  have : w.slt 0#32 = false := by
    simp only [BitVec.slt, BitVec.toInt_zero, decide_eq_false_iff_not, not_lt]
    exact h
  simp only [IntOp.cmpi, this]
  rfl

/-- The normalised word (`shifted` when the word is negative, the word itself otherwise), clamped, is the node
    the word names. -/
theorem clamp_normalised {n : Nat} (hn : 0 < n) (w shifted : BitVec 32) (t : Fin n) (hw : w.toInt = (t.val : Int)) :
    clampIdx n hn (Scalar.select (IntOp.cmpi .slt w 0#32) shifted w) = t := by
  rw [cmpi_slt_zero_of_toInt_nonneg w (by rw [hw]; exact Int.natCast_nonneg _), ValueIdx.select_zero]
  refine Fin.ext ?_
  show min w.toInt.toNat (n - 1) = t.val
  rw [hw, Int.toNat_natCast]
  have := t.isLt
  omega

end Cert.GcnSpec

end
-- ==== Proof.RefFacts.lean ====
/-
  Two facts about the plain program's stages that the comparison of the two forms needs.

  (1) The degree factor of a node is a non-negative real: the degree is the accumulating scatter of ones at the
      target words, from zero, that is a finite sum of ones; the factor selects between the inverse square root of
      `max degree 1` and zero.
  (2) For an edge whose target word names the node `t`, the factor gathered at the normalised, clamped target word
      is read at `t`.
-/
import proofs.«162294_j48996986912815_2_alg».proof.Proof.RefReadP
import proofs.«162294_j48996986912815_2_alg».proof.Proof.DegreeFactor
import proofs.«162294_j48996986912815_2_alg».proof.Proof.EdgeWords
import proofs.«162294_j48996986912815_2_alg».proof.Proof.LibRowGatherScatter

noncomputable section

namespace Cert.ReferenceIdeal.RefFacts

open Cert.ReferenceIdeal Cert.ReferenceIdeal.ReadP Idealize.ShloMosaic Idealize.ShloMosaic.ValueIdx

/-- The degree of node `t`: from zero, one for every edge whose target word is `t`. -/
theorem degree_apply (x9 : (⟨S2x600000, .i32⟩ : BufTy).Contents (Elt Ideal)) (t : Fin 50000) :
    val_main_v38 (F := Ideal) x9 (ix1 t)
      = Ideal.ofBits .f32 0x00000000#32
        + ∑ _e ∈ Finset.univ.filter (fun e : Fin 650000 => (val_main_v37 (F := Ideal) x9 (ix2 e 0)).toInt = (t.val : Int)),
            Ideal.ofBits .f32 0x3F800000#32 := by
  have hs : scatter_S50000_S650000x1_S650000_n_0_0_1
      = RowIdx.add1Dims 50000 650000 Facts₀.scatter_S50000_S650000x1_S650000_n_0_0_1_wf := rfl
  unfold val_main_v38
  simp only [Host.scatterAdd, Ideal.hostScatterAdd_def]
  rw [hs, RowIdx.scatterAdd1_apply]
  refine congrArg₂ (· + ·) ?_ (Finset.sum_congr rfl fun e _ => ?_)
  · rw [val_main_v36_apply, val_main_cst_4_apply, Ideal.ofBits_def]
  · rw [val_main_v35_apply, val_main_cst_3_apply, Ideal.ofBits_def]

/-- (1) The degree factor of a node is a non-negative real. -/
theorem dis_real (x9 : (⟨S2x600000, .i32⟩ : BufTy).Contents (Elt Ideal)) (t : Fin 50000) :
    ∃ r : ℝ, 0 ≤ r ∧ val_main_v44 (F := Ideal) x9 (ix1 t) = (r : EReal) := by
  rw [val_main_v44_apply, val_main_v43_apply, val_main_v42_apply, val_main_v41_apply, val_main_cst_6_apply,
    val_main_call0_v1_apply, val_main_call0_v0_apply, val_main_cst_7_apply, degree_apply]
  simp only [Ideal.ofBits_def, Ideal.hostUnary_rsqrt_def, Ideal.maximumf_def]
  exact Cert.GcnSpec.degree_factor_real _ _

/-- (2) For an edge into `t` the normalised target word, clamped, is `t`. -/
theorem colN_edge (x9 : (⟨S2x600000, .i32⟩ : BufTy).Contents (Elt Ideal)) (t : Fin 50000) :
    ∀ e ∈ Cert.GcnSpec.edgesTo (fun e : Fin 650000 => val_main_v34 (F := Ideal) x9 (ix1 e)) t,
      Cert.GcnSpec.clampIdx 50000 (by decide) (val_main_v56 (F := Ideal) x9 (ix1 e)) = t := by
  intro e he
  have hw : (val_main_v34 (F := Ideal) x9 (ix1 e)).toInt = (t.val : Int) := (Finset.mem_filter.mp he).2
  rw [val_main_v56_apply, val_main_v53_apply, val_main_v52_apply, val_main_c_9_apply]
  exact Cert.GcnSpec.clamp_normalised (by decide) _ _ t hw

end Cert.ReferenceIdeal.RefFacts

end
-- ==== Proof.Bridge.lean ====
/-
  The two forms of the graph convolution agree on the extended reals.

  For a target node `t` both forms sum over the same edges (those whose target is `t`), so it is enough
  that multiplication by the factor `dis t` goes through the aggregate,
      dis t · (0 + ∑ e, a e) = 0 + ∑ e, dis t · a e,
  and that for such an edge the factor gathered at the edge's normalised target is `dis t` itself. On the
  extended reals a product distributes over a sum when the factor is a non-negative REAL (with an infinite
  factor it fails: ⊤ · (1 + (−1)) = 0 but ⊤ · 1 + ⊤ · (−1) = ⊥); the inverse square root of a degree is one.
  The summands then agree by commutativity and associativity of the product alone.
-/
import proofs.«162294_j48996986912815_2_alg».proof.Proof.Spec

noncomputable section

namespace Cert.GcnSpec

open Idealize.ShloMosaic

/-- A non-negative real factor goes through a finite sum of extended reals. -/
theorem coe_mul_sum {ι : Type} (s : Finset ι) (r : ℝ) (hr : 0 ≤ r) (a : ι → EReal) :
    (r : EReal) * ∑ e ∈ s, a e = ∑ e ∈ s, (r : EReal) * a e := by
  classical
  induction s using Finset.induction_on with
  | empty => simp
  | insert e s he ih =>
    rw [Finset.sum_insert he, Finset.sum_insert he,
      EReal.left_distrib_of_nonneg_of_ne_top (by exact_mod_cast hr) (EReal.coe_ne_top r), ih]

variable {N E C K Q : Nat}

/-- The form that scales at the source and at the target is the form that scales every message by both
    factors, when every factor is a non-negative real and the factor gathered at the normalised target of an
    edge into `t` is `t`'s own. -/
theorem kerForm_eq_refForm (hN : 0 < N) (x : Fin N → Fin K → EReal) (W : Fin K → Fin C → EReal) (dis : Fin N → EReal)
    (rowN colN colw : Fin E → BitVec 32) (gb : Fin C → EReal) (Wc : Fin Q → Fin C → EReal) (bc : Fin Q → EReal)
    (t : Fin N) (q : Fin Q)
    (hdis : ∃ r : ℝ, 0 ≤ r ∧ dis t = (r : EReal))
    (hcol : ∀ e ∈ edgesTo colw t, clampIdx N hN (colN e) = t) :
    kerForm hN x W dis rowN colw gb Wc bc t q = refForm hN x W dis rowN colN colw gb Wc bc t q := by
  obtain ⟨r, hr, hd⟩ := hdis
  unfold kerForm refForm
  refine congrArg (fun h => classify h Wc bc q) (funext fun f => congrArg (· + gb f) ?_)
  rw [hd, EReal.left_distrib_of_nonneg_of_ne_top (by exact_mod_cast hr) (EReal.coe_ne_top r), mul_zero,
    coe_mul_sum _ r hr]
  refine congrArg (0 + ·) (Finset.sum_congr rfl fun e he => ?_)
  rw [hcol e he, hd, mul_comm (feat x W _ f) _, ← mul_assoc, mul_comm (r : EReal) _]

end Cert.GcnSpec

end
-- ==== Proof.Claims.lean ====
/-
  The five claims of the certificate.

  Both programs compute a graph convolution with symmetric normalisation followed by a linear classifier:
  with `dis v = 1 / sqrt (degree v)` (zero for an isolated node), `W` the weight matrix evolved by one recurrent
  step, and the edges `e` from `row e` to `col e` (a self-loop appended for every node),
      out t q = ∑ f, max (h t f) 0 · Wc q f + bc q,    h t f = ∑ over the edges e into t of dis (row e) · dis t · (x · W) (row e) f + bias f.
  The plain program multiplies every message by both factors. The tiled program multiplies the rows of `x · W` by
  the source's factor in a first tiled region, gathers and adds them up on the host, and multiplies the aggregate by
  the target's factor in a second tiled region, which also applies the classifier. On the extended reals the two
  agree because every factor is a non-negative REAL — a degree is a finite count — so it distributes over the
  aggregate whatever the features hold; nothing else is rearranged but the order of the factors of a product. The
  precondition (finite inputs) is therefore never opened.

  The frames of the two tiled programs are the generated ones; the plain program's frame is its run with the result
  dropped. The idealization rewrote nothing, so there is nothing to preserve.
-/
import proofs.«162294_j48996986912815_2_alg».proof.Defs
import proofs.«162294_j48996986912815_2_alg».proof.Proof.Gen.Pre_finite_inputs
import proofs.«162294_j48996986912815_2_alg».proof.Proof.Gen.Kernel.Frame
import proofs.«162294_j48996986912815_2_alg».proof.Proof.Gen.KernelIdeal.Frame
import proofs.«162294_j48996986912815_2_alg».proof.Proof.KRun
import proofs.«162294_j48996986912815_2_alg».proof.Proof.KValue
import proofs.«162294_j48996986912815_2_alg».proof.Proof.RefRead
import proofs.«162294_j48996986912815_2_alg».proof.Proof.RefFacts
import proofs.«162294_j48996986912815_2_alg».proof.Proof.Bridge

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

set_option maxRecDepth 100000 in
/-- From memories that agree on the arguments both programs end with the same result array: at `(t, q)` the
    tiled program's is the form that scales at the source and at the target, the plain program's the form that
    scales every message by both factors, and the two forms agree. -/
theorem algebraic : Cert.algebraic_KernelIdeal_ReferenceIdeal := by
  intro m ρ m' ρ' _ hagree
  refine ⟨fun c => Cert.KernelIdeal.Gen.W6 m ρ c (Proc.devRef .tc Cert.KernelIdeal.main_v57),
    Cert.KernelIdeal.KVal.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v82_eq]
  obtain ⟨h0, h1, h2, _, h4, h5, h6, h7, h8, h9⟩ := hagree c
  rw [h0, h1, h2, h4, h5, h6, h7, h8, h9]
  funext i
  obtain ⟨t, q, rfl⟩ : ∃ (t : Fin 50000) (q : Fin 2), i = ix2 t q := ⟨i 0, i 1, eq_ix2 i⟩
  rw [Cert.ReferenceIdeal.RefValue.result_apply]
  have hK := Cert.KernelIdeal.KVal.kernel_value m ρ c t q
  have hd := Cert.ReferenceIdeal.RefFacts.dis_real (Cert.KernelIdeal.KVal.A9 m c) t
  have hc := Cert.ReferenceIdeal.RefFacts.colN_edge (Cert.KernelIdeal.KVal.A9 m c) t
  have hB := Cert.GcnSpec.kerForm_eq_refForm (N := 50000) (E := 650000) (C := 128) (K := 128) (Q := 2) (by decide)
    (fun v k => Cert.KernelIdeal.KVal.A0 m c (ix2 v k))
    (fun k f => Cert.ReferenceIdeal.ReadP.val_main_v27 (F := Ideal) (Cert.KernelIdeal.KVal.A1 m c)
      (Cert.KernelIdeal.KVal.A2 m c) (Cert.KernelIdeal.KVal.A4 m c) (Cert.KernelIdeal.KVal.A5 m c) (ix2 k f))
    (fun v => Cert.ReferenceIdeal.ReadP.val_main_v44 (F := Ideal) (Cert.KernelIdeal.KVal.A9 m c) (ix1 v))
    (fun e => Cert.ReferenceIdeal.ReadP.val_main_v49 (F := Ideal) (Cert.KernelIdeal.KVal.A9 m c) (ix1 e))
    (fun e => Cert.ReferenceIdeal.ReadP.val_main_v56 (F := Ideal) (Cert.KernelIdeal.KVal.A9 m c) (ix1 e))
    (fun e => Cert.ReferenceIdeal.ReadP.val_main_v34 (F := Ideal) (Cert.KernelIdeal.KVal.A9 m c) (ix1 e))
    (fun f => Cert.KernelIdeal.KVal.A6 m c (ix1 f)) (fun q f => Cert.KernelIdeal.KVal.A7 m c (ix2 q f))
    (fun q => Cert.KernelIdeal.KVal.A8 m c (ix1 q)) t q hd hc
  exact hB.symm.trans hK.symm

end Cert.Proof.Claims

end
-- ==== Proof.lean ====
/-
  A graph convolution in two tiled regions against the plain program: the certificate's claim, assembled.

  The mathematics is in Proof/Claims.lean (which law joins the two programs, and why it holds on the extended
  reals without any finiteness of the inputs); the pieces it cites read each program's result index by index.
-/
import proofs.«162294_j48996986912815_2_alg».proof.Defs
import proofs.«162294_j48996986912815_2_alg».proof.Proof.Gen.Kernel
import proofs.«162294_j48996986912815_2_alg».proof.Proof.Gen.KernelIdeal
import proofs.«162294_j48996986912815_2_alg».proof.Proof.Gen.ReferenceIdeal
import proofs.«162294_j48996986912815_2_alg».proof.Proof.Gen.Pre_finite_inputs
import proofs.«162294_j48996986912815_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
